-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x100000 : Shape := ⟨2, ![2048, 100000]⟩
abbrev S100000x1 : Shape := ⟨2, ![100000, 1]⟩
abbrev S100000x16 : Shape := ⟨2, ![100000, 16]⟩
abbrev S_ : Shape := ⟨0, ![]⟩

class Facts : Prop where
  bcast_S_S2048x100000 : S_.BroadcastsInDim S2048x100000 (![] : Fin 0 → Fin S2048x100000.rank)
  reducesTo_S2048x100000_S_d0_1 : S2048x100000.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S2048x100000 .f32) (main_arg1 : FVec F S100000x1 .f32) (main_arg2 : FVec F S100000x16 .f32) : IVec S_ 1 :=
  let main_v0 : FVec F S2048x100000 .f32 := Host.absf main_arg0
  let main_cst : FVec F S_ .f32 := constant S_ .f32 0x7F800000#32
  let main_v1 : FVec F S2048x100000 .f32 := broadcastInDim S2048x100000 ![] bcast_S_S2048x100000 main_cst
  let main_v2 : IVec S2048x100000 1 := cmpf .olt main_v0 main_v1
  let main_c : IVec S_ 1 := constantI S_ 1 1#1
  let main_v3 : IVec S_ 1 := (fun x v => Host.reduce IntOp.andi x v reducesTo_S2048x100000_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x16 .f32 := Host.absf main_arg2
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  main_v13
-- ==== Kernel.lean ====
abbrev S2048x100000 : Shape := ⟨2, ![2048, 100000]⟩
abbrev S100000x1 : Shape := ⟨2, ![100000, 1]⟩
abbrev S100000x16 : Shape := ⟨2, ![100000, 16]⟩
abbrev S100000x17 : Shape := ⟨2, ![100000, 17]⟩
abbrev S_ : Shape := ⟨0, ![]⟩
abbrev S100352x17 : Shape := ⟨2, ![100352, 17]⟩
abbrev S100352x16 : Shape := ⟨2, ![100352, 16]⟩
abbrev S2048 : Shape := ⟨1, ![2048]⟩
abbrev S512x2048 : Shape := ⟨2, ![512, 2048]⟩
abbrev S2048x17 : Shape := ⟨2, ![2048, 17]⟩
abbrev S2048x16 : Shape := ⟨2, ![2048, 16]⟩
abbrev S512 : Shape := ⟨1, ![512]⟩
abbrev S512x17 : Shape := ⟨2, ![512, 17]⟩
abbrev S512x16 : Shape := ⟨2, ![512, 16]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S2048x100000, .f32⟩
  | .hbm, ⟨1, _⟩ => ⟨S100000x1, .f32⟩
  | .hbm, ⟨2, _⟩ => ⟨S100000x16, .f32⟩
  | .hbm, ⟨3, _⟩ => ⟨S100000x17, .f32⟩
  | .hbm, ⟨4, _⟩ => ⟨S100000x16, .f32⟩
  | .hbm, ⟨5, _⟩ => ⟨S_, .i32⟩
  | .hbm, ⟨6, _⟩ => ⟨S_, .f32⟩
  | .hbm, ⟨7, _⟩ => ⟨S100352x17, .f32⟩
  | .hbm, ⟨8, _⟩ => ⟨S_, .i32⟩
  | .hbm, ⟨9, _⟩ => ⟨S_, .f32⟩
  | .hbm, ⟨10, _⟩ => ⟨S100352x16, .f32⟩
  | .hbm, ⟨11, _⟩ => ⟨S100352x17, .bf16⟩
  | .hbm, ⟨12, _⟩ => ⟨S100352x16, .bf16⟩
  | .hbm, ⟨13, _⟩ => ⟨S2048, .f32⟩
  | .local _ .vmem, ⟨0, _⟩ => ⟨S512x2048, .f32⟩
  | .local _ .vmem, ⟨1, _⟩ => ⟨S512x2048, .f32⟩
  | .local _ .vmem, ⟨2, _⟩ => ⟨S2048x17, .bf16⟩
  | .local _ .vmem, ⟨3, _⟩ => ⟨S2048x17, .bf16⟩
  | .local _ .vmem, ⟨4, _⟩ => ⟨S2048x16, .bf16⟩
  | .local _ .vmem, ⟨5, _⟩ => ⟨S2048x16, .bf16⟩
  | .local _ .vmem, ⟨6, _⟩ => ⟨S512, .f32⟩
  | .local _ .vmem, ⟨7, _⟩ => ⟨S512, .f32⟩
  | .local _ .vmem, ⟨8, _⟩ => ⟨S512x17, .f32⟩
  | .local _ .vmem, ⟨9, _⟩ => ⟨S512x16, .f32⟩
  | _, _ => ⟨S2048x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 49], ![false, false]⟩

def k0_cond2 (i : grid0.Coords) : BitVec 1 :=
  let arg1 : BitVec 32 := BitVec.ofNat 32 (i 1).val
  let c48_i32 : BitVec 32 := 48#32
  let v30 : BitVec 1 := Scalar.cmpi .eq arg1 c48_i32
  let v31 : BitVec 32 := Scalar.extui v30
  let c0_i32_16 : BitVec 32 := 0#32
  let v32 : BitVec 1 := Scalar.cmpi .ne v31 c0_i32_16
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x17 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  concatenates_S100000x1_S100000x16_S100000x17_d1 : Shape.Concatenates [S100000x1, S100000x16] S100000x17 1
  pads_S100000x17_S100352x17_03520_000 : S100000x17.Pads (![0, 0] : Fin 2 → Nat) ![352, 0] ![0, 0] S100352x17
  h_S_ : 0 < S_.numel
  pads_S100000x16_S100352x16_03520_000 : S100000x16.Pads (![0, 0] : Fin 2 → Nat) ![352, 0] ![0, 0] S100352x16
  bitsLt_bf16_f32 : FTy.bits .bf16 < FTy.bits .f32
  inb_S512x17_S512x17_0_0 : ∀ a, (![0, 0] : Fin 2 → Nat) a + S512x17.size a ≤ S512x17.size a
  h_S512x17 : 0 < S512x17.numel
  shapeCasts_S512x17_S512x17 : S512x17.ShapeCasts S512x17
  inb_S512x16_S512x16_0_0 : ∀ a, (![0, 0] : Fin 2 → Nat) a + S512x16.size a ≤ S512x16.size a
  h_S512x16 : 0 < S512x16.numel
  shapeCasts_S512x16_S512x16 : S512x16.ShapeCasts S512x16
  iota_S512x2048_d1_w32 : S512x2048.Iotas .tc 32 [1]
  inb_S512x2048_S512x2048_0_0 : ∀ a, (![0, 0] : Fin 2 → Nat) a + S512x2048.size a ≤ S512x2048.size a
  h_S512x2048 : 0 < S512x2048.numel
  inb_S2048x17_S2048x17_0_0 : ∀ a, (![0, 0] : Fin 2 → Nat) a + S2048x17.size a ≤ S2048x17.size a
  h_S2048x17 : 0 < S2048x17.numel
  shapeCasts_S2048x17_S2048x17 : S2048x17.ShapeCasts S2048x17
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  slices_S512x17_o0_0_S512x1 : S512x17.Slices ![0, 0] S512x1
  shapeCasts_S512x1_S512 : S512x1.ShapeCasts S512
  slices_S512x17_o0_1_S512x16 : S512x17.Slices ![0, 1] S512x16
  reduces_S512x16_S512 : S512x16.Reduces [1] S512
  inb_S512_S512_0 : ∀ a, (![0] : Fin 1 → Nat) a + S512.size a ≤ S512.size a
  h_S512 : 0 < S512.numel
  dot_S512x2048_S2048x17_S512x17_1_0_0_1_n_n_wf : DotDims.WF S512x2048 S2048x17 S512x17 [1] [0] [0] [1] [] []
  dot_S512x2048_S2048x16_S512x16_1_0_0_1_n_n_wf : DotDims.WF S512x2048 S2048x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x2048.size a < S2048x100000.size a
  hwx0_0 : ∀ i : grid0.Coords, EltTy.bits .f32 = 32 ∨ (Rect.unit (s := S2048x100000) (fun a => cc0_transform_0 i a * S512x2048.size a) (fun a => (Pipeline.Clip.of (cc0_transform_0 i a) (S512x2048.size a) (S2048x100000.size a)).extent (S512x2048.size a)) fun a => Pipeline.Clip.inb (Pipeline.Clip.ok_of (hstart0_0 i a))).WholeWords (EltTy.packing .f32)
  hwxs0_0 : ∀ i : grid0.Coords, EltTy.bits .f32 = 32 ∨ (Rect.unit (s := S512x2048) (fun _ => 0) (fun a => (Pipeline.Clip.of (cc0_transform_0 i a) (S512x2048.size a) (S2048x100000.size a)).extent (S512x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x17.size a ≤ S100352x17.size a
  hwx0_1 : ∀ i : grid0.Coords, EltTy.bits .bf16 = 32 ∨ (Rect.block (s := S100352x17) S2048x17.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S100352x16.size a
  hwx0_2 : ∀ i : grid0.Coords, EltTy.bits .bf16 = 32 ∨ (Rect.block (s := S100352x16) S2048x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S2048.size a
  hwx0_3 : ∀ i : grid0.Coords, EltTy.bits .f32 = 32 ∨ (Rect.block (s := S2048) S512.size (cc0_transform_3 i) (hinb0_3 i)).WholeWords (EltTy.packing .f32)

variable [Facts₀]

def dot_S512x2048_S2048x17_S512x17_1_0_0_1_n_n : DotDims S512x2048 S2048x17 S512x17 where
  lhsContracting := [1]
  rhsContracting := [0]
  lhsNonContracting := [0]
  rhsNonContracting := [1]
  lhsBatch := []
  rhsBatch := []
  wf := dot_S512x2048_S2048x17_S512x17_1_0_0_1_n_n_wf
def dot_S512x2048_S2048x16_S512x16_1_0_0_1_n_n : DotDims S512x2048 S2048x16 S512x16 where
  lhsContracting := [1]
  rhsContracting := [0]
  lhsNonContracting := [0]
  rhsNonContracting := [1]
  lhsBatch := []
  rhsBatch := []
  wf := dot_S512x2048_S2048x16_S512x16_1_0_0_1_n_n_wf

abbrev win0_0 : Pipeline.Window sig grid0 :=
  Pipeline.Window.ofSpecClip (Memref.whole main_arg0) S512x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v4) S2048x17.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x100000 : Shape := ⟨2, ![2048, 100000]⟩
abbrev S100000x1 : Shape := ⟨2, ![100000, 1]⟩
abbrev S100000x16 : Shape := ⟨2, ![100000, 16]⟩
abbrev S2048x1 : Shape := ⟨2, ![2048, 1]⟩
abbrev S2048 : Shape := ⟨1, ![2048]⟩
abbrev S2048x16 : Shape := ⟨2, ![2048, 16]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x100000, .f32⟩
  | .hbm, ⟨1, _⟩ => ⟨S100000x1, .f32⟩
  | .hbm, ⟨2, _⟩ => ⟨S100000x16, .f32⟩
  | .hbm, ⟨3, _⟩ => ⟨S2048x1, .f32⟩
  | .hbm, ⟨4, _⟩ => ⟨S2048, .f32⟩
  | .hbm, ⟨5, _⟩ => ⟨S2048x16, .f32⟩
  | .hbm, ⟨6, _⟩ => ⟨S2048x16, .f32⟩
  | .hbm, ⟨7, _⟩ => ⟨S2048x100000, .f32⟩
  | .hbm, ⟨8, _⟩ => ⟨S100000x16, .f32⟩
  | .hbm, ⟨9, _⟩ => ⟨S2048x16, .f32⟩
  | .hbm, ⟨10, _⟩ => ⟨S2048x16, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048, .f32⟩
  | _, _ => ⟨S2048x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S2048x1_S2048 : S2048x1.ShapeCasts S2048
  reducesTo_S2048x16_S2048_d1 : S2048x16.ReducesTo [1] S2048
  h_S_ : 0 < S_.numel
  bcast_S_S2048 : S_.BroadcastsInDim S2048 (![] : Fin 0 → Fin S2048.rank)
  dot_S2048x100000_S100000x1_S2048x1_1_0_0_1_n_n_wf : DotDims.WF S2048x100000 S100000x1 S2048x1 [1] [0] [0] [1] [] []
  dot_S2048x100000_S100000x16_S2048x16_1_0_0_1_n_n_wf : DotDims.WF S2048x100000 S100000x16 S2048x16 [1] [0] [0] [1] [] []

variable [Facts₀]

def dot_S2048x100000_S100000x1_S2048x1_1_0_0_1_n_n : DotDims S2048x100000 S100000x1 S2048x1 where
  lhsContracting := [1]
  rhsContracting := [0]
  lhsNonContracting := [0]
  rhsNonContracting := [1]
  lhsBatch := []
  rhsBatch := []
  wf := dot_S2048x100000_S100000x1_S2048x1_1_0_0_1_n_n_wf
def dot_S2048x100000_S100000x16_S2048x16_1_0_0_1_n_n : DotDims S2048x100000 S100000x16 S2048x16 where
  lhsContracting := [1]
  rhsContracting := [0]
  lhsNonContracting := [0]
  rhsNonContracting := [1]
  lhsBatch := []
  rhsBatch := []
  wf := dot_S2048x100000_S100000x16_S2048x16_1_0_0_1_n_n_wf

class Facts : Prop extends Facts₀ where

variable [Facts]
-- ==== Proof.KernelRuns.lean ====
import proofs.«175364_j73907797229838_2_alg».proof.Proof.Gen.Kernel.Frame
import proofs.«175364_j73907797229838_2_alg».proof.Proof.Gen.Kernel.Skeleton
import Idealize.ShloMosaic.Lib.Pipeline.FrameBody
import Idealize.ShloMosaic.Lib.Pipeline.Value
import Idealize.ShloMosaic.Lib.Tactic

set_option maxRecDepth 16384

/-!
  The kernel body at one grid point (i, kk), as three triples — one per way its two conditionals go.

  The body keeps two running sums in scratch: `acc17` (512×17: column 0 the linear term, columns 1..16 the
  sums x·v) and `acc16` (512×16: the sums x²·v²). At the first block of a row of the grid (kk = 0) both are
  zeroed before the block's products are added; at every block the masked block of x (columns at or past
  100000 replaced by zero) is multiplied into the two weight blocks and added; at the last block (kk = 48)
  the row's 512 results  acc17[:,0] + ½·Σ_k (acc17[:,1+k]² − acc16[:,k])  are stored to the output block.
  Each triple names what every buffer holds afterwards through the body's payload functions.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The first conditional of the body: the block is the first of its row (kk = 0). -/
abbrev condFirst (i : grid0.Coords) : Prop := (Scalar.cmpi .ne (Scalar.extui (Scalar.cmpi .eq (BitVec.ofNat 32 (i 1).val) 0#32)) 0#32) = 1#1
/-- The second: the block is the last of its row (kk = 48). -/
abbrev condLast (i : grid0.Coords) : Prop := k0_cond2 i = 1#1

theorem zeros2 : (![0, 0] : Fin 2 → Nat) = fun _ => 0 := funext fun a => by fin_cases a <;> rfl
theorem zeros1 : (![0] : Fin 1 → Nat) = fun _ => 0 := funext fun a => by fin_cases a; rfl

/-- The two running sums after one block is added to `s0`, `s1`. -/
def acc17 (i : grid0.Coords) (x0 : Vec F S512x2048 .f32) (x1 : Vec F S2048x17 .bf16) (s0 : Vec F S512x17 .f32) : Vec F S512x17 .f32 :=
  k0_pay5 i x0 s0 x1
def acc16 (i : grid0.Coords) (x0 : Vec F S512x2048 .f32) (x2 : Vec F S2048x16 .bf16) (s1 : Vec F S512x16 .f32) : Vec F S512x16 .f32 :=
  k0_pay6 i x0 s1 x2
/-- The row's results from the finished sums. -/
def rowOut (s0 : Vec F S512x17 .f32) (s1 : Vec F S512x16 .f32) : Vec F S512 .f32 := k0_pay1 s0 s0 s1

set_option maxHeartbeats 1000000 in
/-- A middle block (neither first nor last): both sums grow by the block's products; nothing else changes. -/
theorem run_mid (c : Dev nD) (i : grid0.Coords) (arg2 : Memref sig .tc .vmem S512x2048 .f32) (harg2 : arg2.IsWhole) (arg3 : Memref sig .tc .vmem S2048x17 .bf16) (harg3 : arg3.IsWhole) (arg4 : Memref sig .tc .vmem S2048x16 .bf16) (harg4 : arg4.IsWhole) (arg5 : Memref sig .tc .vmem S512 .f32) (harg5 : arg5.IsWhole) (arg6 : Memref sig .tc .vmem S512x17 .f32) (harg6 : arg6.IsWhole) (arg7 : Memref sig .tc .vmem S512x16 .f32) (harg7 : arg7.IsWhole)
    (hc0 : ¬condFirst i) (hc1 : ¬condLast i)
    (x0 : Vec F S512x2048 .f32) (x1 : Vec F S2048x17 .bf16) (x2 : Vec F S2048x16 .bf16) (x3 : Vec F S512 .f32) (xs0 : Vec F S512x17 .f32) (xs1 : Vec F S512x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (acc17 i x0 x1 xs0)
            ∗ owns (c : Thread nD τ) arg7 fullShare (acc16 i x0 x2 xs1)) -∗ K ⟨⟩))
      ⊢ wp frame (wpE (defs₀ (F := F)) Variants.none c none) E (cc0__fm_kernel i arg2 harg2 arg3 harg3 arg4 harg4 arg5 harg5 arg6 harg6 arg7 harg7) K := by
  have hz2 := zeros2
  have hz1 := zeros1
  simp only [cc0__fm_kernel_eq_skeleton]; unfold cc0__fm_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    try sl_unfold_words
    rw [View.read_writes_eq_canon _ _ _ (fun y => ⟨_, List.mem_singleton_self _, View.mem_set_unit_zero hz2 Facts₀.inb_S512x17_S512x17_0_0 y⟩), View.canon_unit_zero hz2]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl
  · iexists _; isplitr
    swap; · iexact HS1
    ipureintro
    try sl_unfold_words
    rw [View.read_writes_eq_canon _ _ _ (fun y => ⟨_, List.mem_singleton_self _, View.mem_set_unit_zero hz2 Facts₀.inb_S512x16_S512x16_0_0 y⟩), View.canon_unit_zero hz2]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl

set_option maxHeartbeats 1000000 in
/-- The first block of a row (not also the last): whatever the scratch held, both sums restart from zero and
    take the block's products. -/
theorem run_first (c : Dev nD) (i : grid0.Coords) (arg2 : Memref sig .tc .vmem S512x2048 .f32) (harg2 : arg2.IsWhole) (arg3 : Memref sig .tc .vmem S2048x17 .bf16) (harg3 : arg3.IsWhole) (arg4 : Memref sig .tc .vmem S2048x16 .bf16) (harg4 : arg4.IsWhole) (arg5 : Memref sig .tc .vmem S512 .f32) (harg5 : arg5.IsWhole) (arg6 : Memref sig .tc .vmem S512x17 .f32) (harg6 : arg6.IsWhole) (arg7 : Memref sig .tc .vmem S512x16 .f32) (harg7 : arg7.IsWhole)
    (hc0 : condFirst i) (hc1 : ¬condLast i)
    (x0 : Vec F S512x2048 .f32) (x1 : Vec F S2048x17 .bf16) (x2 : Vec F S2048x16 .bf16) (x3 : Vec F S512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (acc17 i x0 x1 k0_pay2)
            ∗ owns (c : Thread nD τ) arg7 fullShare (acc16 i x0 x2 k0_pay3)) -∗ K ⟨⟩))
      ⊢ wp frame (wpE (defs₀ (F := F)) Variants.none c none) E (cc0__fm_kernel i arg2 harg2 arg3 harg3 arg4 harg4 arg5 harg5 arg6 harg6 arg7 harg7) K := by
  have hz2 := zeros2
  have hz1 := zeros1
  simp only [cc0__fm_kernel_eq_skeleton]; unfold cc0__fm_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    try sl_unfold_words
    rw [View.read_writes_eq_canon _ _ _ (fun y => ⟨_, List.mem_cons_self .., View.mem_set_unit_zero hz2 Facts₀.inb_S512x17_S512x17_0_0 y⟩), View.canon_cons_unit_zero hz2]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl
  · iexists _; isplitr
    swap; · iexact HS1
    ipureintro
    try sl_unfold_words
    rw [View.read_writes_eq_canon _ _ _ (fun y => ⟨_, List.mem_cons_self .., View.mem_set_unit_zero hz2 Facts₀.inb_S512x16_S512x16_0_0 y⟩), View.canon_cons_unit_zero hz2]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl

set_option maxHeartbeats 1000000 in
/-- The last block of a row (not also the first): both sums take the block's products, and the row's results are
    stored to the output block, whatever it held. -/
theorem run_last (c : Dev nD) (i : grid0.Coords) (arg2 : Memref sig .tc .vmem S512x2048 .f32) (harg2 : arg2.IsWhole) (arg3 : Memref sig .tc .vmem S2048x17 .bf16) (harg3 : arg3.IsWhole) (arg4 : Memref sig .tc .vmem S2048x16 .bf16) (harg4 : arg4.IsWhole) (arg5 : Memref sig .tc .vmem S512 .f32) (harg5 : arg5.IsWhole) (arg6 : Memref sig .tc .vmem S512x17 .f32) (harg6 : arg6.IsWhole) (arg7 : Memref sig .tc .vmem S512x16 .f32) (harg7 : arg7.IsWhole)
    (hc0 : ¬condFirst i) (hc1 : condLast i)
    (x0 : Vec F S512x2048 .f32) (x1 : Vec F S2048x17 .bf16) (x2 : Vec F S2048x16 .bf16) (xs0 : Vec F S512x17 .f32) (xs1 : Vec F S512x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare (rowOut (acc17 i x0 x1 xs0) (acc16 i x0 x2 xs1)) ∗ owns (c : Thread nD τ) arg6 fullShare (acc17 i x0 x1 xs0)
            ∗ owns (c : Thread nD τ) arg7 fullShare (acc16 i x0 x2 xs1)) -∗ K ⟨⟩))
      ⊢ wp frame (wpE (defs₀ (F := F)) Variants.none c none) E (cc0__fm_kernel i arg2 harg2 arg3 harg3 arg4 harg4 arg5 harg5 arg6 harg6 arg7 harg7) K := by
  have hz2 := zeros2
  have hz1 := zeros1
  simp only [cc0__fm_kernel_eq_skeleton]; unfold cc0__fm_kernel_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    try sl_unfold_words
    rw [View.read_writes_eq_canon _ _ _ (fun y => ⟨_, List.mem_singleton_self _, View.mem_set_unit_zero hz1 Facts₀.inb_S512_S512_0 y⟩), View.canon_unit_zero hz1]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl
  isplitl [HS0]
  · iexists _; isplitr
    swap; · iexact HS0
    ipureintro
    try sl_unfold_words
    rw [View.read_writes_eq_canon _ _ _ (fun y => ⟨_, List.mem_singleton_self _, View.mem_set_unit_zero hz2 Facts₀.inb_S512x17_S512x17_0_0 y⟩), View.canon_unit_zero hz2]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl
  · iexists _; isplitr
    swap; · iexact HS1
    ipureintro
    try sl_unfold_words
    rw [View.read_writes_eq_canon _ _ _ (fun y => ⟨_, List.mem_singleton_self _, View.mem_set_unit_zero hz2 Facts₀.inb_S512x16_S512x16_0_0 y⟩), View.canon_unit_zero hz2]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl

end Cert.Kernel.Hand

end
-- ==== Proof.KernelMask.lean ====
import proofs.«175364_j73907797229838_2_alg».proof.Proof.KernelRuns
import Mathlib.Tactic

/-!
  The masked block of x. The body replaces by zero every entry of its 512×2048 block of x whose column
  kk·2048 + j lies at or past 100000 before anything reads it. The last block of a row overhangs the array
  (48·2048 + 2048 > 100000) and its fetch lands only the columns inside the array; whatever the staging buffer
  holds on the other columns is masked. So the two block updates are the same function of the part of the
  block inside the array, whatever fills the rest — over any float instance.
-/

noncomputable section

namespace Cert.Kernel.Hand

open Cert.Kernel Cert.Kernel.Gen
open Idealize.ShloMosaic Idealize.SL.Sem
open Idealize.ShloMosaic.Pipeline (Window)

variable {F : FTy → Type} [FloatOps F]

/-- Word arithmetic of the mask: for kk < 49 and j < 2048 the signed 32-bit test kk·2048 + j < 100000 is the
    test on the naturals (nothing wraps: the sum is below 100352). -/
theorem mask_word (kk j1 : ℕ) (hk : kk < 49) (hj : j1 < 2048) :
    (BitVec.ofNat 32 kk * 2048#32 + BitVec.ofNat 32 (0 * 2048 + j1)).slt 100000#32 = true ↔ kk * 2048 + j1 < 100000 := by
  have e : (BitVec.ofNat 32 kk * 2048#32 + BitVec.ofNat 32 (0 * 2048 + j1)) = BitVec.ofNat 32 (kk * 2048 + j1) := by
    apply BitVec.eq_of_toNat_eq
    simp only [BitVec.toNat_add, BitVec.toNat_mul, BitVec.toNat_ofNat]
    omega
  rw [e, BitVec.slt, decide_eq_true_iff, BitVec.toInt_eq_toNat_cond, BitVec.toInt_eq_toNat_cond]
  simp only [BitVec.toNat_ofNat]
  have h1 : (kk * 2048 + j1) % 2 ^ 32 = kk * 2048 + j1 := Nat.mod_eq_of_lt (by omega)
  rw [h1]
  norm_num
  omega

/-- A mask bit that is set is a true test. -/
theorem ofBool_eq_one {b : Bool} (h : BitVec.ofBool b = 1#1) : b = true := by
  cases b
  · exact absurd h (by decide)
  · rfl

/-- A format change of a masked entry reads the entry only where the mask bit is set. -/
theorem truncf_select_congr {φ ψ : FTy} (hlt : ψ.bits < φ.bits) (b : BitVec 1) (a a' z : F φ) (h : b = 1#1 → a = a') :
    FloatOps.truncf ψ hlt (Scalar.select b a z) = FloatOps.truncf ψ hlt (Scalar.select b a' z) := by
  unfold Scalar.select
  by_cases hb : b = 1
  · rw [if_pos hb, if_pos hb, h hb]
  · rw [if_neg hb, if_neg hb]

/-- Two blocks that agree on the columns inside the array have the same masked block. -/
theorem pay4_congr (i : grid0.Coords) (X X' : Vec F S512x2048 .f32)
    (h : ∀ j : S512x2048.Idx, (i 1).val * 2048 + (j 1).val < 100000 → X j = X' j) : k0_pay4 i X = k0_pay4 i X' := by
  funext j
  have h49 : (i 1).val < 49 := (i 1).isLt
  have h2048 : (j 1).val < 2048 := (j 1).isLt
  unfold k0_pay4
  dsimp only [truncf, select]
  refine truncf_select_congr _ _ _ _ _ (fun hb => h j ?_)
  dsimp only [cmpi, addi, broadcast, iota, IntOp.cmpi, IntOp.addi, Scalar.muli, IntOp.muli, List.foldl] at hb
  exact (mask_word _ _ h49 h2048).mp (ofBool_eq_one hb)

/-- So have the two block updates. -/
theorem acc17_congr (i : grid0.Coords) (X X' : Vec F S512x2048 .f32) (x1 : Vec F S2048x17 .bf16) (s0 : Vec F S512x17 .f32)
    (h : ∀ j : S512x2048.Idx, (i 1).val * 2048 + (j 1).val < 100000 → X j = X' j) : acc17 i X x1 s0 = acc17 i X' x1 s0 := by
  unfold acc17 k0_pay5; rw [pay4_congr i X X' h]
theorem acc16_congr (i : grid0.Coords) (X X' : Vec F S512x2048 .f32) (x2 : Vec F S2048x16 .bf16) (s1 : Vec F S512x16 .f32)
    (h : ∀ j : S512x2048.Idx, (i 1).val * 2048 + (j 1).val < 100000 → X j = X' j) : acc16 i X x2 s1 = acc16 i X' x2 s1 := by
  unfold acc16 k0_pay6; rw [pay4_congr i X X' h]

/-- An entry of window 0's block whose column lies inside the array is one the fetch lands: whatever the
    staging buffer held is replaced there. -/
theorem fill_inside {α : Type} (i : grid0.Coords) (d d' : S512x2048.Idx → α) (g : (win0_0.xblock i).Idx → α)
    (j : S512x2048.Idx) (hj : (i 1).val * 2048 + (j 1).val < 100000) : win0_0.fill i d g j = win0_0.fill i d' g j := by
  have h4 : (i 0).val < 4 := (i 0).isLt
  have h49 : (i 1).val < 49 := (i 1).isLt
  have h512 : (j 0).val < 512 := (j 0).isLt
  have hm : win0_0.moved i j = true := by
    rw [Window.moved_iff]
    intro a
    have hok := win0_0.hclip i a
    have hin : win0_0.indexMap i a * win0_0.size a + (j a).val < win0_0.shape.size a := by
      match a with
      | ⟨0, _⟩ =>
        show (BitVec.ofNat 32 (i 0).val).toNat * 512 + (j 0).val < 2048
        rw [BitVec.toNat_ofNat, Nat.mod_eq_of_lt (by omega)]; omega
      | ⟨1, _⟩ =>
        show (BitVec.ofNat 32 (i 1).val).toNat * 2048 + (j 1).val < 100000
        rw [BitVec.toNat_ofNat, Nat.mod_eq_of_lt (by omega)]; exact hj
    revert hok hin
    show Pipeline.Clip.Ok (win0_0.indexMap i a) (win0_0.size a) (win0_0.shape.size a) (win0_0.clip i a) → _ → (j a).val < (win0_0.clip i a).extent (win0_0.size a)
    generalize win0_0.clip i a = cl
    intro hok hin
    cases cl with
    | none => exact (j a).isLt
    | some n =>
      have e := hok.2.2
      show (j a).val < n
      omega
  unfold Window.fill; rw [dif_pos hm, dif_pos hm]

end Cert.Kernel.Hand

end
-- ==== Proof.KernelData.lean ====
import proofs.«175364_j73907797229838_2_alg».proof.Proof.KernelMask
import Idealize.ShloMosaic.Lib.Pipeline.Frame

set_option maxRecDepth 16384

/-!
  The pipeline's run. The grid is 4 rows of 49 blocks, walked in order (point t = 49·i + kk). What the two
  scratch sums hold after each point is defined by recursion on the point — restarted from zero at the first
  block of a row, grown by the block's products at every block — and is the region's invariant from one point
  to the next; the output block is stored at a row's last point from the finished sums and is left as found at
  the others. Window 0's last block of a row overhangs the array: its staging buffer is described only on the
  columns inside the array, and the body's mask makes what it computes independent of the rest.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditionals over the grid, and where the output window is idle -/

theorem hfirst : ∀ t : Fin cfg0.N, condFirst (grid0.coords t) ↔ t.val % 49 = 0 :=
  (by decide +kernel : ∀ t : Fin grid0.N, condFirst (grid0.coords t) ↔ t.val % 49 = 0)
theorem hlast : ∀ t : Fin cfg0.N, condLast (grid0.coords t) ↔ t.val % 49 = 48 :=
  (by decide +kernel : ∀ t : Fin grid0.N, condLast (grid0.coords t) ↔ t.val % 49 = 48)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬condLast (grid0.coords t) → cfg0.idle 3 (grid0.coords t) = true := by decide +kernel
theorem live3 : ∀ t : Fin cfg0.N, condLast (grid0.coords t) → cfg0.idle 3 (grid0.coords t) = false := by decide +kernel
theorem noFlush3 : ∀ t : Fin cfg0.N, ¬condLast (grid0.coords t) → (cfg0.win 3).flush t = false := by decide +kernel

/-! ## The memrefs the body is called with -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x17 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x16 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .f32 := win0_3.stage (cfg0.slots t 3)
abbrev hs3 (t : Fin cfg0.N) : (ms3 t).IsWhole := hstage0_3 ((cfg0.slots t 3).cast nbuf0_3)
abbrev scM0 : Memref sig .tc .vmem S512x17 .f32 := Memref.whole cc0_scratch0
abbrev scM1 : Memref sig .tc .vmem S512x16 .f32 := Memref.whole cc0_scratch1

/-- The class invariant with the two scratch buffers as memrefs at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the scratch sums and the output block hold after each point -/

/-- Window 0's block at point `t`: its part inside the array, zero past the array's end. -/
def xin (c : Dev nD) (t : Fin cfg0.N) : Vec F S512x2048 .f32 :=
  (cfg0.win 0).fill (cfg0.grid.coords t) (fun _ => Scalar.ofBits .f32 0#32) (iblk m c 0 t)

/-- One block's products added to a pair of sums. -/
def stepAcc (c : Dev nD) (t : Fin cfg0.N) (p : Vec F S512x17 .f32 × Vec F S512x16 .f32) : Vec F S512x17 .f32 × Vec F S512x16 .f32 :=
  (acc17 (grid0.coords t) (xin m c t) (iblk m c 1 t) p.1, acc16 (grid0.coords t) (xin m c t) (iblk m c 2 t) p.2)

/-- The sums after point `n`: restarted from zero at a row's first block. -/
def accAt (c : Dev nD) : (n : ℕ) → n < cfg0.N → Vec F S512x17 .f32 × Vec F S512x16 .f32
  | 0, hn => stepAcc m c ⟨0, hn⟩ (k0_pay2, k0_pay3)
  | n + 1, hn => stepAcc m c ⟨n + 1, hn⟩ (if (n + 1) % 49 = 0 then (k0_pay2, k0_pay3) else accAt c n (Nat.lt_of_succ_lt hn))

theorem accAt_first (c : Dev nD) (t : Fin cfg0.N) (h0 : t.val % 49 = 0) :
    accAt m c t.val t.isLt = stepAcc m c t (k0_pay2, k0_pay3) := by
  obtain ⟨n, hn⟩ := t
  cases n with
  | zero => rfl
  | succ n => exact congrArg (stepAcc m c ⟨n + 1, hn⟩) (if_pos h0)

theorem accAt_next (c : Dev nD) (t : Fin cfg0.N) (h0 : ¬t.val % 49 = 0) :
    accAt m c t.val t.isLt = stepAcc m c t (accAt m c (t.val - 1) (Nat.lt_of_le_of_lt (Nat.sub_le _ _) t.isLt)) := by
  obtain ⟨n, hn⟩ := t
  cases n with
  | zero => exact absurd (Nat.zero_mod _) h0
  | succ n => exact congrArg (stepAcc m c ⟨n + 1, hn⟩) (if_neg h0)

/-- The output block stored at point `t` (a row's last): the row's results from the sums after `t`. -/
def outAt (c : Dev nD) (t : Fin cfg0.N) : Vec F S512 .f32 := rowOut (accAt m c t.val t.isLt).1 (accAt m c t.val t.isLt).2

/-- The region invariant before position `n`: at the start the class's (scratch at anything); afterwards the
    two scratch buffers at the sums the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare ((accAt m c n hn).1) ∗ owns (c : Thread nD τ) scM1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare ((accAt m c n hn).1) ∗ owns (c : Thread nD τ) scM1 fullShare ((accAt m c n hn).2)) ∗ (∃ r, prngReg c r)) := rfl
theorem PhiS_pos (c : Dev nD) (n : ℕ) (h : n ≤ cfg0.N) (hz : n ≠ 0) :
    PhiS m c n h = iprop(iprop(owns (c : Thread nD τ) scM0 fullShare ((accAt m c (n - 1) (by omega)).1) ∗ owns (c : Thread nD τ) scM1 fullShare ((accAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = xin m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

/-- What the body finds: window 0's buffer just fetched — its block on the columns inside the array, `d` elsewhere —, -/
theorem before_0 (c : Dev nD) (t : Fin cfg0.N) (d) :
    (dats m 0 c).before 0 t d = (cfg0.win 0).fill (cfg0.grid.coords t) d (iblk m c 0 t) := by
  unfold Dat.before; rw [if_pos (fetch0_0 t)]; rfl
/-- and the two weight windows' buffers at their blocks. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body owes of each buffer afterwards. -/
theorem leaves_0 (c : Dev nD) (t : Fin cfg0.N) :
    (dats m 0 c).leaves 0 t = iprop(∃ d, owns (c : Thread nD τ) (ms0 t) fullShare ((cfg0.win 0).fill (cfg0.grid.coords t) d (iblk m c 0 t))) := by
  unfold Dat.leaves; rw [live0 t]
  show iprop(∃ d, owns (c : Thread nD τ) (ms0 t) fullShare ((cfg0.win 0).fill (cfg0.grid.coords t) d ((cfg0.win 0).cut (cfg0.grid.coords t) ((dats m 0 c).after 0 t)))) = _
  rw [after_0]; unfold xin; rw [Window.cut_fill]
theorem leaves_1 (c : Dev nD) (t : Fin cfg0.N) :
    (dats m 0 c).leaves 1 t = owns (c : Thread nD τ) (ms1 t) fullShare (iblk m c 1 t) := by
  unfold Dat.leaves; rw [live1 t]
  show owns (c : Thread nD τ) (ms1 t) fullShare ((dats m 0 c).after 1 t) = _
  rw [after_1]
theorem leaves_2 (c : Dev nD) (t : Fin cfg0.N) :
    (dats m 0 c).leaves 2 t = owns (c : Thread nD τ) (ms2 t) fullShare (iblk m c 2 t) := by
  unfold Dat.leaves; rw [live2 t]
  show owns (c : Thread nD τ) (ms2 t) fullShare ((dats m 0 c).after 2 t) = _
  rw [after_2]
theorem leaves_3_last (c : Dev nD) (t : Fin cfg0.N) (h : condLast (grid0.coords t)) :
    (dats m 0 c).leaves 3 t = owns (c : Thread nD τ) (ms3 t) fullShare (outAt m c t) := by
  unfold Dat.leaves; rw [live3 t h]
  show owns (c : Thread nD τ) (ms3 t) fullShare ((dats m 0 c).after 3 t) = _
  rw [after_3]

end Cert.Kernel.Hand

end
-- ==== Proof.KernelFrame.lean ====
import proofs.«175364_j73907797229838_2_alg».proof.Proof.KernelData

set_option maxRecDepth 16384

/-!
  The body obligation of the pipeline, point by point, and the run: every weakly fair execution of @main
  terminates without a fault, the argument arrays end as launched, and the result array ends at what the
  write-backs of the four rows' last points leave in it.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
/-- The body at any point. Its position in its row (t mod 49) says which way the two conditionals go; the
    invariant hands it the scratch sums of the point before (anything at a row's first block), the windows
    their blocks; the sums it leaves are the next point's, by the mask whatever filled window 0's buffer past
    the array's end; the output block is stored at a row's last point and handed back as found elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN : t.val < 196 := lt_of_lt_of_eq t.isLt (show cfg0.N = 196 from N_0)
  have e17 : ∀ d s, acc17 (grid0.coords t) ((cfg0.win 0).fill (cfg0.grid.coords t) d (iblk m c 0 t)) (iblk m c 1 t) s
      = acc17 (grid0.coords t) (xin m c t) (iblk m c 1 t) s := fun d s =>
    acc17_congr _ _ _ _ _ (fun j hj => fill_inside (grid0.coords t) d _ (iblk m c 0 t) j hj)
  have e16 : ∀ d s, acc16 (grid0.coords t) ((cfg0.win 0).fill (cfg0.grid.coords t) d (iblk m c 0 t)) (iblk m c 2 t) s
      = acc16 (grid0.coords t) (xin m c t) (iblk m c 2 t) s := fun d s =>
    acc16_congr _ _ _ _ _ (fun j hj => fill_inside (grid0.coords t) d _ (iblk m c 0 t) j hj)
  by_cases h0 : t.val % 49 = 0
  · -- a row's first block
    have hl : ¬t.val % 49 = 48 := by omega
    have hcl : ¬condLast (grid0.coords t) := fun h => hl ((hlast t).mp h)
    rw [Dat.leaves_idle (dats m 0 c) 3 t (idle3 t hcl) (noFlush3 t hcl)]
    rw [accAt_first m c t h0]
    unfold stepAcc; dsimp only
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) scM0 (Memref.isWhole_whole _) scM1 (Memref.isWhole_whole _) ((hfirst t).mpr h0) hcl
        ((cfg0.win 0).fill (cfg0.grid.coords t) d0 (iblk m c 0 t)) (iblk m c 1 t) (iblk m c 2 t) ((dats m 0 c).before 3 t d3) Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      simp only [e17, e16]
      isplitl [HS0 HS1 Hg]
      · isplitl [HS0 HS1]
        · isplitl [HS0]; · iexact HS0
          iexact HS1
        iexact Hg
      isplitl [Ho]; · iexact Ho
      isplitl [H0]; · iexists d0; iexact H0
      isplitl [H1]; · iexact H1
      isplitl [H2]; · iexact H2
      iexists d3; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) scM0 (Memref.isWhole_whole _) scM1 (Memref.isWhole_whole _) ((hfirst t).mpr h0) hcl
        ((cfg0.win 0).fill (cfg0.grid.coords t) d0 (iblk m c 0 t)) (iblk m c 1 t) (iblk m c 2 t) ((dats m 0 c).before 3 t d3) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      simp only [e17, e16]
      isplitl [HS0 HS1 Hg]
      · isplitl [HS0 HS1]
        · isplitl [HS0]; · iexact HS0
          iexact HS1
        iexact Hg
      isplitl [Ho]; · iexact Ho
      isplitl [H0]; · iexists d0; iexact H0
      isplitl [H1]; · iexact H1
      isplitl [H2]; · iexact H2
      iexists d3; iexact H3
  · have hcf : ¬condFirst (grid0.coords t) := fun h => h0 ((hfirst t).mp h)
    have hz : t.val ≠ 0 := fun h => h0 (by rw [h])
    by_cases h1 : t.val % 49 = 48
    · -- a row's last block
      have hcl : condLast (grid0.coords t) := (hlast t).mpr h1
      rw [leaves_3_last m c t hcl]
      unfold outAt
      rw [accAt_next m c t h0]
      unfold stepAcc; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) scM0 (Memref.isWhole_whole _) scM1 (Memref.isWhole_whole _) hcf hcl
        ((cfg0.win 0).fill (cfg0.grid.coords t) d0 (iblk m c 0 t)) (iblk m c 1 t) (iblk m c 2 t) _ _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      simp only [e17, e16]
      isplitl [HS0 HS1 Hg]
      · isplitl [HS0 HS1]
        · isplitl [HS0]; · iexact HS0
          iexact HS1
        iexact Hg
      isplitl [Ho]; · iexact Ho
      isplitl [H0]; · iexists d0; iexact H0
      isplitl [H1]; · iexact H1
      isplitl [H2]; · iexact H2
      iexact H3
    · -- a middle block
      have hcl : ¬condLast (grid0.coords t) := fun h => h1 ((hlast t).mp h)
      rw [Dat.leaves_idle (dats m 0 c) 3 t (idle3 t hcl) (noFlush3 t hcl)]
      rw [accAt_next m c t h0]
      unfold stepAcc; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) scM0 (Memref.isWhole_whole _) scM1 (Memref.isWhole_whole _) hcf hcl
        ((cfg0.win 0).fill (cfg0.grid.coords t) d0 (iblk m c 0 t)) (iblk m c 1 t) (iblk m c 2 t) ((dats m 0 c).before 3 t d3) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      simp only [e17, e16]
      isplitl [HS0 HS1 Hg]
      · isplitl [HS0 HS1]
        · isplitl [HS0]; · iexact HS0
          iexact HS1
        iexact Hg
      isplitl [Ho]; · iexact Ho
      isplitl [H0]; · iexists d0; iexact H0
      isplitl [H1]; · iexact H1
      isplitl [H2]; · iexact H2
      iexists d3; iexact H3

/-- The library's body obligation, at every point (window 0 stated on the columns its transfers move). -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the sums' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 196 := N_0; omega), PhiA0_eq]
  iintro ⟨⟨HS0, HS1⟩, Hg⟩
  isplitl [HS0 HS1]
  · isplitl [HS0]; · iexists _; iexact HS0
    iexists _; iexact HS1
  iexact Hg

set_option backward.isDefEq.respectTransparency.types false in
/-- The run: every weakly fair execution of @main terminates, every array of the pipeline ends at what the
    library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: @main runs to the end without a fault and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KernelIdealRuns.lean ====
import proofs.«175364_j73907797229838_2_alg».proof.Proof.Gen.KernelIdeal.Frame
import proofs.«175364_j73907797229838_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

/-!
  The kernel body at one grid point (i, kk), as three triples — one per way its two conditionals go.

  The body keeps two running sums in scratch: `acc17` (512×17: column 0 the linear term, columns 1..16 the
  sums x·v) and `acc16` (512×16: the sums x²·v²). At the first block of a row of the grid (kk = 0) both are
  zeroed before the block's products are added; at every block the masked block of x (columns at or past
  100000 replaced by zero) is multiplied into the two weight blocks and added; at the last block (kk = 48)
  the row's 512 results  acc17[:,0] + ½·Σ_k (acc17[:,1+k]² − acc16[:,k])  are stored to the output block.
  Each triple names what every buffer holds afterwards through the body's payload functions.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The first conditional of the body: the block is the first of its row (kk = 0). -/
abbrev condFirst (i : grid0.Coords) : Prop := (Scalar.cmpi .ne (Scalar.extui (Scalar.cmpi .eq (BitVec.ofNat 32 (i 1).val) 0#32)) 0#32) = 1#1
/-- The second: the block is the last of its row (kk = 48). -/
abbrev condLast (i : grid0.Coords) : Prop := k0_cond2 i = 1#1

theorem zeros2 : (![0, 0] : Fin 2 → Nat) = fun _ => 0 := funext fun a => by fin_cases a <;> rfl
theorem zeros1 : (![0] : Fin 1 → Nat) = fun _ => 0 := funext fun a => by fin_cases a; rfl

/-- The two running sums after one block is added to `s0`, `s1`. -/
def acc17 (i : grid0.Coords) (x0 : Vec F S512x2048 .f32) (x1 : Vec F S2048x17 .bf16) (s0 : Vec F S512x17 .f32) : Vec F S512x17 .f32 :=
  k0_pay5 i x0 s0 x1
def acc16 (i : grid0.Coords) (x0 : Vec F S512x2048 .f32) (x2 : Vec F S2048x16 .bf16) (s1 : Vec F S512x16 .f32) : Vec F S512x16 .f32 :=
  k0_pay6 i x0 s1 x2
/-- The row's results from the finished sums. -/
def rowOut (s0 : Vec F S512x17 .f32) (s1 : Vec F S512x16 .f32) : Vec F S512 .f32 := k0_pay1 s0 s0 s1

set_option maxHeartbeats 1000000 in
/-- A middle block (neither first nor last): both sums grow by the block's products; nothing else changes. -/
theorem run_mid (c : Dev nD) (i : grid0.Coords) (arg2 : Memref sig .tc .vmem S512x2048 .f32) (harg2 : arg2.IsWhole) (arg3 : Memref sig .tc .vmem S2048x17 .bf16) (harg3 : arg3.IsWhole) (arg4 : Memref sig .tc .vmem S2048x16 .bf16) (harg4 : arg4.IsWhole) (arg5 : Memref sig .tc .vmem S512 .f32) (harg5 : arg5.IsWhole) (arg6 : Memref sig .tc .vmem S512x17 .f32) (harg6 : arg6.IsWhole) (arg7 : Memref sig .tc .vmem S512x16 .f32) (harg7 : arg7.IsWhole)
    (hc0 : ¬condFirst i) (hc1 : ¬condLast i)
    (x0 : Vec F S512x2048 .f32) (x1 : Vec F S2048x17 .bf16) (x2 : Vec F S2048x16 .bf16) (x3 : Vec F S512 .f32) (xs0 : Vec F S512x17 .f32) (xs1 : Vec F S512x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (acc17 i x0 x1 xs0)
            ∗ owns (c : Thread nD τ) arg7 fullShare (acc16 i x0 x2 xs1)) -∗ K ⟨⟩))
      ⊢ wp frame (wpE (defs₀ (F := F)) Variants.none c none) E (cc0__fm_kernel i arg2 harg2 arg3 harg3 arg4 harg4 arg5 harg5 arg6 harg6 arg7 harg7) K := by
  have hz2 := zeros2
  have hz1 := zeros1
  simp only [cc0__fm_kernel_eq_skeleton]; unfold cc0__fm_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    try sl_unfold_words
    rw [View.read_writes_eq_canon _ _ _ (fun y => ⟨_, List.mem_singleton_self _, View.mem_set_unit_zero hz2 Facts₀.inb_S512x17_S512x17_0_0 y⟩), View.canon_unit_zero hz2]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl
  · iexists _; isplitr
    swap; · iexact HS1
    ipureintro
    try sl_unfold_words
    rw [View.read_writes_eq_canon _ _ _ (fun y => ⟨_, List.mem_singleton_self _, View.mem_set_unit_zero hz2 Facts₀.inb_S512x16_S512x16_0_0 y⟩), View.canon_unit_zero hz2]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl

set_option maxHeartbeats 1000000 in
/-- The first block of a row (not also the last): whatever the scratch held, both sums restart from zero and
    take the block's products. -/
theorem run_first (c : Dev nD) (i : grid0.Coords) (arg2 : Memref sig .tc .vmem S512x2048 .f32) (harg2 : arg2.IsWhole) (arg3 : Memref sig .tc .vmem S2048x17 .bf16) (harg3 : arg3.IsWhole) (arg4 : Memref sig .tc .vmem S2048x16 .bf16) (harg4 : arg4.IsWhole) (arg5 : Memref sig .tc .vmem S512 .f32) (harg5 : arg5.IsWhole) (arg6 : Memref sig .tc .vmem S512x17 .f32) (harg6 : arg6.IsWhole) (arg7 : Memref sig .tc .vmem S512x16 .f32) (harg7 : arg7.IsWhole)
    (hc0 : condFirst i) (hc1 : ¬condLast i)
    (x0 : Vec F S512x2048 .f32) (x1 : Vec F S2048x17 .bf16) (x2 : Vec F S2048x16 .bf16) (x3 : Vec F S512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (acc17 i x0 x1 k0_pay2)
            ∗ owns (c : Thread nD τ) arg7 fullShare (acc16 i x0 x2 k0_pay3)) -∗ K ⟨⟩))
      ⊢ wp frame (wpE (defs₀ (F := F)) Variants.none c none) E (cc0__fm_kernel i arg2 harg2 arg3 harg3 arg4 harg4 arg5 harg5 arg6 harg6 arg7 harg7) K := by
  have hz2 := zeros2
  have hz1 := zeros1
  simp only [cc0__fm_kernel_eq_skeleton]; unfold cc0__fm_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    try sl_unfold_words
    rw [View.read_writes_eq_canon _ _ _ (fun y => ⟨_, List.mem_cons_self .., View.mem_set_unit_zero hz2 Facts₀.inb_S512x17_S512x17_0_0 y⟩), View.canon_cons_unit_zero hz2]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl
  · iexists _; isplitr
    swap; · iexact HS1
    ipureintro
    try sl_unfold_words
    rw [View.read_writes_eq_canon _ _ _ (fun y => ⟨_, List.mem_cons_self .., View.mem_set_unit_zero hz2 Facts₀.inb_S512x16_S512x16_0_0 y⟩), View.canon_cons_unit_zero hz2]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl

set_option maxHeartbeats 1000000 in
/-- The last block of a row (not also the first): both sums take the block's products, and the row's results are
    stored to the output block, whatever it held. -/
theorem run_last (c : Dev nD) (i : grid0.Coords) (arg2 : Memref sig .tc .vmem S512x2048 .f32) (harg2 : arg2.IsWhole) (arg3 : Memref sig .tc .vmem S2048x17 .bf16) (harg3 : arg3.IsWhole) (arg4 : Memref sig .tc .vmem S2048x16 .bf16) (harg4 : arg4.IsWhole) (arg5 : Memref sig .tc .vmem S512 .f32) (harg5 : arg5.IsWhole) (arg6 : Memref sig .tc .vmem S512x17 .f32) (harg6 : arg6.IsWhole) (arg7 : Memref sig .tc .vmem S512x16 .f32) (harg7 : arg7.IsWhole)
    (hc0 : ¬condFirst i) (hc1 : condLast i)
    (x0 : Vec F S512x2048 .f32) (x1 : Vec F S2048x17 .bf16) (x2 : Vec F S2048x16 .bf16) (xs0 : Vec F S512x17 .f32) (xs1 : Vec F S512x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare (rowOut (acc17 i x0 x1 xs0) (acc16 i x0 x2 xs1)) ∗ owns (c : Thread nD τ) arg6 fullShare (acc17 i x0 x1 xs0)
            ∗ owns (c : Thread nD τ) arg7 fullShare (acc16 i x0 x2 xs1)) -∗ K ⟨⟩))
      ⊢ wp frame (wpE (defs₀ (F := F)) Variants.none c none) E (cc0__fm_kernel i arg2 harg2 arg3 harg3 arg4 harg4 arg5 harg5 arg6 harg6 arg7 harg7) K := by
  have hz2 := zeros2
  have hz1 := zeros1
  simp only [cc0__fm_kernel_eq_skeleton]; unfold cc0__fm_kernel_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    try sl_unfold_words
    rw [View.read_writes_eq_canon _ _ _ (fun y => ⟨_, List.mem_singleton_self _, View.mem_set_unit_zero hz1 Facts₀.inb_S512_S512_0 y⟩), View.canon_unit_zero hz1]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl
  isplitl [HS0]
  · iexists _; isplitr
    swap; · iexact HS0
    ipureintro
    try sl_unfold_words
    rw [View.read_writes_eq_canon _ _ _ (fun y => ⟨_, List.mem_singleton_self _, View.mem_set_unit_zero hz2 Facts₀.inb_S512x17_S512x17_0_0 y⟩), View.canon_unit_zero hz2]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl
  · iexists _; isplitr
    swap; · iexact HS1
    ipureintro
    try sl_unfold_words
    rw [View.read_writes_eq_canon _ _ _ (fun y => ⟨_, List.mem_singleton_self _, View.mem_set_unit_zero hz2 Facts₀.inb_S512x16_S512x16_0_0 y⟩), View.canon_unit_zero hz2]
    simp only [View.readAt_eq_ld, harg2.read_unread, harg3.read_unread, harg4.read_unread, harg6.read_unread, harg7.read_unread,
      View.ld_unit_zero (S := S512x2048) hz2, View.ld_unit_zero (S := S2048x17) hz2, View.ld_unit_zero (S := S2048x16) hz2,
      View.ld_unit_zero (S := S512x17) hz2, View.ld_unit_zero (S := S512x16) hz2,
      View.readCov_unit_zero (S := S512x17) _ hz2, View.readCov_unit_zero (S := S512x16) _ hz2]
    try rfl

end Cert.KernelIdeal.Hand

end
-- ==== Proof.KernelIdealMask.lean ====
import proofs.«175364_j73907797229838_2_alg».proof.Proof.KernelIdealRuns
import Mathlib.Tactic

/-!
  The masked block of x. The body replaces by zero every entry of its 512×2048 block of x whose column
  kk·2048 + j lies at or past 100000 before anything reads it. The last block of a row overhangs the array
  (48·2048 + 2048 > 100000) and its fetch lands only the columns inside the array; whatever the staging buffer
  holds on the other columns is masked. So the two block updates are the same function of the part of the
  block inside the array, whatever fills the rest — over any float instance.
-/

noncomputable section

namespace Cert.KernelIdeal.Hand

open Cert.KernelIdeal Cert.KernelIdeal.Gen
open Idealize.ShloMosaic Idealize.SL.Sem
open Idealize.ShloMosaic.Pipeline (Window)

variable {F : FTy → Type} [FloatOps F]

/-- Word arithmetic of the mask: for kk < 49 and j < 2048 the signed 32-bit test kk·2048 + j < 100000 is the
    test on the naturals (nothing wraps: the sum is below 100352). -/
theorem mask_word (kk j1 : ℕ) (hk : kk < 49) (hj : j1 < 2048) :
    (BitVec.ofNat 32 kk * 2048#32 + BitVec.ofNat 32 (0 * 2048 + j1)).slt 100000#32 = true ↔ kk * 2048 + j1 < 100000 := by
  have e : (BitVec.ofNat 32 kk * 2048#32 + BitVec.ofNat 32 (0 * 2048 + j1)) = BitVec.ofNat 32 (kk * 2048 + j1) := by
    apply BitVec.eq_of_toNat_eq
    simp only [BitVec.toNat_add, BitVec.toNat_mul, BitVec.toNat_ofNat]
    omega
  rw [e, BitVec.slt, decide_eq_true_iff, BitVec.toInt_eq_toNat_cond, BitVec.toInt_eq_toNat_cond]
  simp only [BitVec.toNat_ofNat]
  have h1 : (kk * 2048 + j1) % 2 ^ 32 = kk * 2048 + j1 := Nat.mod_eq_of_lt (by omega)
  rw [h1]
  norm_num
  omega

/-- A mask bit that is set is a true test. -/
theorem ofBool_eq_one {b : Bool} (h : BitVec.ofBool b = 1#1) : b = true := by
  cases b
  · exact absurd h (by decide)
  · rfl

/-- A format change of a masked entry reads the entry only where the mask bit is set. -/
theorem truncf_select_congr {φ ψ : FTy} (hlt : ψ.bits < φ.bits) (b : BitVec 1) (a a' z : F φ) (h : b = 1#1 → a = a') :
    FloatOps.truncf ψ hlt (Scalar.select b a z) = FloatOps.truncf ψ hlt (Scalar.select b a' z) := by
  unfold Scalar.select
  by_cases hb : b = 1
  · rw [if_pos hb, if_pos hb, h hb]
  · rw [if_neg hb, if_neg hb]

/-- Two blocks that agree on the columns inside the array have the same masked block. -/
theorem pay4_congr (i : grid0.Coords) (X X' : Vec F S512x2048 .f32)
    (h : ∀ j : S512x2048.Idx, (i 1).val * 2048 + (j 1).val < 100000 → X j = X' j) : k0_pay4 i X = k0_pay4 i X' := by
  funext j
  have h49 : (i 1).val < 49 := (i 1).isLt
  have h2048 : (j 1).val < 2048 := (j 1).isLt
  unfold k0_pay4
  dsimp only [truncf, select]
  refine truncf_select_congr _ _ _ _ _ (fun hb => h j ?_)
  dsimp only [cmpi, addi, broadcast, iota, IntOp.cmpi, IntOp.addi, Scalar.muli, IntOp.muli, List.foldl] at hb
  exact (mask_word _ _ h49 h2048).mp (ofBool_eq_one hb)

/-- So have the two block updates. -/
theorem acc17_congr (i : grid0.Coords) (X X' : Vec F S512x2048 .f32) (x1 : Vec F S2048x17 .bf16) (s0 : Vec F S512x17 .f32)
    (h : ∀ j : S512x2048.Idx, (i 1).val * 2048 + (j 1).val < 100000 → X j = X' j) : acc17 i X x1 s0 = acc17 i X' x1 s0 := by
  unfold acc17 k0_pay5; rw [pay4_congr i X X' h]
theorem acc16_congr (i : grid0.Coords) (X X' : Vec F S512x2048 .f32) (x2 : Vec F S2048x16 .bf16) (s1 : Vec F S512x16 .f32)
    (h : ∀ j : S512x2048.Idx, (i 1).val * 2048 + (j 1).val < 100000 → X j = X' j) : acc16 i X x2 s1 = acc16 i X' x2 s1 := by
  unfold acc16 k0_pay6; rw [pay4_congr i X X' h]

/-- An entry of window 0's block whose column lies inside the array is one the fetch lands: whatever the
    staging buffer held is replaced there. -/
theorem fill_inside {α : Type} (i : grid0.Coords) (d d' : S512x2048.Idx → α) (g : (win0_0.xblock i).Idx → α)
    (j : S512x2048.Idx) (hj : (i 1).val * 2048 + (j 1).val < 100000) : win0_0.fill i d g j = win0_0.fill i d' g j := by
  have h4 : (i 0).val < 4 := (i 0).isLt
  have h49 : (i 1).val < 49 := (i 1).isLt
  have h512 : (j 0).val < 512 := (j 0).isLt
  have hm : win0_0.moved i j = true := by
    rw [Window.moved_iff]
    intro a
    have hok := win0_0.hclip i a
    have hin : win0_0.indexMap i a * win0_0.size a + (j a).val < win0_0.shape.size a := by
      match a with
      | ⟨0, _⟩ =>
        show (BitVec.ofNat 32 (i 0).val).toNat * 512 + (j 0).val < 2048
        rw [BitVec.toNat_ofNat, Nat.mod_eq_of_lt (by omega)]; omega
      | ⟨1, _⟩ =>
        show (BitVec.ofNat 32 (i 1).val).toNat * 2048 + (j 1).val < 100000
        rw [BitVec.toNat_ofNat, Nat.mod_eq_of_lt (by omega)]; exact hj
    revert hok hin
    show Pipeline.Clip.Ok (win0_0.indexMap i a) (win0_0.size a) (win0_0.shape.size a) (win0_0.clip i a) → _ → (j a).val < (win0_0.clip i a).extent (win0_0.size a)
    generalize win0_0.clip i a = cl
    intro hok hin
    cases cl with
    | none => exact (j a).isLt
    | some n =>
      have e := hok.2.2
      show (j a).val < n
      omega
  unfold Window.fill; rw [dif_pos hm, dif_pos hm]

end Cert.KernelIdeal.Hand

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.KernelIdealOps.lean ====
import proofs.«175364_j73907797229838_2_alg».proof.Proof.KernelIdealMask
import proofs.«175364_j73907797229838_2_alg».proof.Proof.LibPlainDot
import proofs.«175364_j73907797229838_2_alg».proof.Proof.LibKeepdimsColumn
import Idealize.ShloMosaic.Lib.Pipeline.Value
import Idealize.ShloMosaic.PureOps.Ideal.Laws

/-!
  The body's arithmetic on the extended reals, read at an index. With a change of float format the identity:
  the masked block is x where the column is inside the array and zero elsewhere; one block update adds to each
  running sum the block's 2048-term products; the row's result is  s17[y,0] + ½·Σ_k (s17[y,1+k]² − s16[y,k]).
-/

noncomputable section

namespace Cert.KernelIdeal.HandValue

open Cert.KernelIdeal Cert.KernelIdeal.Gen Cert.KernelIdeal.Hand
open Idealize.ShloMosaic Idealize.SL.Sem Idealize.ShloMosaic.ValueIdx
open Cert.Lib.PlainDot

/-- The masked block at an entry. -/
theorem pay4_apply (i : grid0.Coords) (X : Vec Ideal S512x2048 .f32) (j : S512x2048.Idx) :
    k0_pay4 (F := Ideal) i X j = if (i 1).val * 2048 + (j 1).val < 100000 then X j else 0 := by
  have h49 : (i 1).val < 49 := (i 1).isLt
  have h2048 : (j 1).val < 2048 := (j 1).isLt
  unfold k0_pay4
  dsimp only [truncf, select]
  rw [Ideal.truncf_def]
  unfold Scalar.select
  by_cases hlt : (i 1).val * 2048 + (j 1).val < 100000
  · rw [if_pos hlt, if_pos]
    dsimp only [cmpi, addi, broadcast, iota, IntOp.cmpi, IntOp.addi, Scalar.muli, IntOp.muli, List.foldl]
    exact congrArg BitVec.ofBool ((mask_word _ _ h49 h2048).mpr hlt)
  · rw [if_neg hlt, if_neg]
    · show FloatOps.ofBits (F := Ideal) .f32 0#32 = 0
      rw [Ideal.ofBits_def]; exact Ideal.ofBits_zero_f32
    · intro hb
      dsimp only [cmpi, addi, broadcast, iota, IntOp.cmpi, IntOp.addi, Scalar.muli, IntOp.muli, List.foldl] at hb
      exact hlt ((mask_word _ _ h49 h2048).mp (ofBool_eq_one hb))

/-- Both sums start a row at zero. -/
theorem pay2_apply (j : S512x17.Idx) : k0_pay2 (F := Ideal) j = 0 := by
  unfold k0_pay2; rw [shapeCast_self]
  show FloatOps.ofBits (F := Ideal) .f32 0#32 = 0
  rw [Ideal.ofBits_def]; exact Ideal.ofBits_zero_f32
theorem pay3_apply (j : S512x16.Idx) : k0_pay3 (F := Ideal) j = 0 := by
  unfold k0_pay3; rw [shapeCast_self]
  show FloatOps.ofBits (F := Ideal) .f32 0#32 = 0
  rw [Ideal.ofBits_def]; exact Ideal.ofBits_zero_f32

/-- One block added to the 17-column sum: entry (y, q) grows by Σ_j xm[y,j]·wv[j,q]. -/
theorem acc17_apply (i : grid0.Coords) (X : Vec Ideal S512x2048 .f32) (x1 : Vec Ideal S2048x17 .bf16) (s : Vec Ideal S512x17 .f32)
    (y : Fin 512) (q : Fin 17) :
    acc17 (F := Ideal) i X x1 s (ix2 y q) = s (ix2 y q) + ∑ j : Fin 2048, k0_pay4 (F := Ideal) i X (ix2 y j) * x1 (ix2 j q) := by
  unfold acc17 k0_pay5
  rw [shapeCast_self, shapeCast_self]
  have e := matmul_zero_eq (φ₁ := .bf16) (φ₂ := .bf16) dot_S512x2048_S2048x17_S512x17_1_0_0_1_n_n rfl none (k0_pay4 (F := Ideal) i X) x1
  show s (ix2 y q) + FloatOps.matmul (F := Ideal) dot_S512x2048_S2048x17_S512x17_1_0_0_1_n_n none (k0_pay4 (F := Ideal) i X) x1 _ (ix2 y q) = _
  rw [e]; rfl

/-- One block added to the 16-column sum: entry (y, k) grows by Σ_j xm[y,j]²·vsq[j,k]. -/
theorem acc16_apply (i : grid0.Coords) (X : Vec Ideal S512x2048 .f32) (x2 : Vec Ideal S2048x16 .bf16) (s : Vec Ideal S512x16 .f32)
    (y : Fin 512) (k : Fin 16) :
    acc16 (F := Ideal) i X x2 s (ix2 y k)
      = s (ix2 y k) + ∑ j : Fin 2048, (k0_pay4 (F := Ideal) i X (ix2 y j) * k0_pay4 (F := Ideal) i X (ix2 y j)) * x2 (ix2 j k) := by
  unfold acc16 k0_pay6
  rw [shapeCast_self, shapeCast_self]
  have e := matmul_zero_eq (φ₁ := .bf16) (φ₂ := .bf16) dot_S512x2048_S2048x16_S512x16_1_0_0_1_n_n rfl none
    (mulf (F := Ideal) (k0_pay4 (F := Ideal) i X) (k0_pay4 (F := Ideal) i X)) x2
  show s (ix2 y k) + FloatOps.matmul (F := Ideal) dot_S512x2048_S2048x16_S512x16_1_0_0_1_n_n none
    (mulf (F := Ideal) (k0_pay4 (F := Ideal) i X) (k0_pay4 (F := Ideal) i X)) x2 _ (ix2 y k) = _
  rw [e]; rfl

/-- The row's result from the finished sums. -/
theorem rowOut_apply (s0 : Vec Ideal S512x17 .f32) (s1 : Vec Ideal S512x16 .f32) (y : Fin 512) :
    rowOut (F := Ideal) s0 s1 (ix1 y)
      = s0 (ix2 y (0 : Fin 17)) + Ideal.ofBits .f32 0x3F000000#32
          * ∑ k : Fin 16, (s0 (ix2 y (⟨k.val + 1, by omega⟩ : Fin 17)) * s0 (ix2 y (⟨k.val + 1, by omega⟩ : Fin 17)) - s1 (ix2 y k)) := by
  unfold rowOut k0_pay1
  show shapeCast S512 (extractStridedSlice S512x1 ![0, 0] s0 Facts₀.slices_S512x17_o0_0_S512x1) Facts₀.shapeCasts_S512x1_S512 (ix1 y)
      + Ideal.ofBits .f32 0x3F000000#32 * multiReduction (F := Ideal) .add [1] S512 _ 0x00000000#32 Facts₀.reduces_S512x16_S512 _ _ (ix1 y) = _
  rw [Cert.Gcn.Lib.rowsum_apply]
  congr 1
  · rw [shapeCast_apply _ _ (ix1 y) (ix2 y (0 : Fin 1)) (by
      rw [Shape.rowMajor_val_two, Shape.rowMajor_val_one]; show y.val * 1 + 0 = y.val; omega)]
    exact extractStridedSlice_apply _ _ _ _ (ix2 y (0 : Fin 17)) (fun a => by
      match a with
      | ⟨0, _⟩ => show y.val = 0 + y.val; omega
      | ⟨1, _⟩ => rfl)
  · congr 1
    refine Finset.sum_congr rfl fun k _ => ?_
    have es : extractStridedSlice S512x16 ![0, 1] s0 Facts₀.slices_S512x17_o0_1_S512x16 (ix2 y k)
        = s0 (ix2 y (⟨k.val + 1, by omega⟩ : Fin 17)) :=
      extractStridedSlice_apply _ _ _ _ _ (fun a => by
        match a with
        | ⟨0, _⟩ => show y.val = 0 + y.val; omega
        | ⟨1, _⟩ => show k.val + 1 = 1 + k.val; omega)
    show extractStridedSlice S512x16 ![0, 1] s0 _ (ix2 y k) * extractStridedSlice S512x16 ![0, 1] s0 _ (ix2 y k) - s1 (ix2 y k) = _
    rw [es]

end Cert.KernelIdeal.HandValue

end
-- ==== Proof.KernelIdealData.lean ====
import proofs.«175364_j73907797229838_2_alg».proof.Proof.KernelIdealMask
import Idealize.ShloMosaic.Lib.Pipeline.Frame

set_option maxRecDepth 16384

/-!
  The pipeline's run. The grid is 4 rows of 49 blocks, walked in order (point t = 49·i + kk). What the two
  scratch sums hold after each point is defined by recursion on the point — restarted from zero at the first
  block of a row, grown by the block's products at every block — and is the region's invariant from one point
  to the next; the output block is stored at a row's last point from the finished sums and is left as found at
  the others. Window 0's last block of a row overhangs the array: its staging buffer is described only on the
  columns inside the array, and the body's mask makes what it computes independent of the rest.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditionals over the grid, and where the output window is idle -/

theorem hfirst : ∀ t : Fin cfg0.N, condFirst (grid0.coords t) ↔ t.val % 49 = 0 :=
  (by decide +kernel : ∀ t : Fin grid0.N, condFirst (grid0.coords t) ↔ t.val % 49 = 0)
theorem hlast : ∀ t : Fin cfg0.N, condLast (grid0.coords t) ↔ t.val % 49 = 48 :=
  (by decide +kernel : ∀ t : Fin grid0.N, condLast (grid0.coords t) ↔ t.val % 49 = 48)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬condLast (grid0.coords t) → cfg0.idle 3 (grid0.coords t) = true := by decide +kernel
theorem live3 : ∀ t : Fin cfg0.N, condLast (grid0.coords t) → cfg0.idle 3 (grid0.coords t) = false := by decide +kernel
theorem noFlush3 : ∀ t : Fin cfg0.N, ¬condLast (grid0.coords t) → (cfg0.win 3).flush t = false := by decide +kernel

/-! ## The memrefs the body is called with -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x17 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x16 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .f32 := win0_3.stage (cfg0.slots t 3)
abbrev hs3 (t : Fin cfg0.N) : (ms3 t).IsWhole := hstage0_3 ((cfg0.slots t 3).cast nbuf0_3)
abbrev scM0 : Memref sig .tc .vmem S512x17 .f32 := Memref.whole cc0_scratch0
abbrev scM1 : Memref sig .tc .vmem S512x16 .f32 := Memref.whole cc0_scratch1

/-- The class invariant with the two scratch buffers as memrefs at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the scratch sums and the output block hold after each point -/

/-- Window 0's block at point `t`: its part inside the array, zero past the array's end. -/
def xin (c : Dev nD) (t : Fin cfg0.N) : Vec F S512x2048 .f32 :=
  (cfg0.win 0).fill (cfg0.grid.coords t) (fun _ => Scalar.ofBits .f32 0#32) (iblk m c 0 t)

/-- One block's products added to a pair of sums. -/
def stepAcc (c : Dev nD) (t : Fin cfg0.N) (p : Vec F S512x17 .f32 × Vec F S512x16 .f32) : Vec F S512x17 .f32 × Vec F S512x16 .f32 :=
  (acc17 (grid0.coords t) (xin m c t) (iblk m c 1 t) p.1, acc16 (grid0.coords t) (xin m c t) (iblk m c 2 t) p.2)

/-- The sums after point `n`: restarted from zero at a row's first block. -/
def accAt (c : Dev nD) : (n : ℕ) → n < cfg0.N → Vec F S512x17 .f32 × Vec F S512x16 .f32
  | 0, hn => stepAcc m c ⟨0, hn⟩ (k0_pay2, k0_pay3)
  | n + 1, hn => stepAcc m c ⟨n + 1, hn⟩ (if (n + 1) % 49 = 0 then (k0_pay2, k0_pay3) else accAt c n (Nat.lt_of_succ_lt hn))

theorem accAt_first (c : Dev nD) (t : Fin cfg0.N) (h0 : t.val % 49 = 0) :
    accAt m c t.val t.isLt = stepAcc m c t (k0_pay2, k0_pay3) := by
  obtain ⟨n, hn⟩ := t
  cases n with
  | zero => rfl
  | succ n => exact congrArg (stepAcc m c ⟨n + 1, hn⟩) (if_pos h0)

theorem accAt_next (c : Dev nD) (t : Fin cfg0.N) (h0 : ¬t.val % 49 = 0) :
    accAt m c t.val t.isLt = stepAcc m c t (accAt m c (t.val - 1) (Nat.lt_of_le_of_lt (Nat.sub_le _ _) t.isLt)) := by
  obtain ⟨n, hn⟩ := t
  cases n with
  | zero => exact absurd (Nat.zero_mod _) h0
  | succ n => exact congrArg (stepAcc m c ⟨n + 1, hn⟩) (if_neg h0)

/-- The output block stored at point `t` (a row's last): the row's results from the sums after `t`. -/
def outAt (c : Dev nD) (t : Fin cfg0.N) : Vec F S512 .f32 := rowOut (accAt m c t.val t.isLt).1 (accAt m c t.val t.isLt).2

/-- The region invariant before position `n`: at the start the class's (scratch at anything); afterwards the
    two scratch buffers at the sums the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare ((accAt m c n hn).1) ∗ owns (c : Thread nD τ) scM1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare ((accAt m c n hn).1) ∗ owns (c : Thread nD τ) scM1 fullShare ((accAt m c n hn).2)) ∗ (∃ r, prngReg c r)) := rfl
theorem PhiS_pos (c : Dev nD) (n : ℕ) (h : n ≤ cfg0.N) (hz : n ≠ 0) :
    PhiS m c n h = iprop(iprop(owns (c : Thread nD τ) scM0 fullShare ((accAt m c (n - 1) (by omega)).1) ∗ owns (c : Thread nD τ) scM1 fullShare ((accAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = xin m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

/-- What the body finds: window 0's buffer just fetched — its block on the columns inside the array, `d` elsewhere —, -/
theorem before_0 (c : Dev nD) (t : Fin cfg0.N) (d) :
    (dats m 0 c).before 0 t d = (cfg0.win 0).fill (cfg0.grid.coords t) d (iblk m c 0 t) := by
  unfold Dat.before; rw [if_pos (fetch0_0 t)]; rfl
/-- and the two weight windows' buffers at their blocks. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body owes of each buffer afterwards. -/
theorem leaves_0 (c : Dev nD) (t : Fin cfg0.N) :
    (dats m 0 c).leaves 0 t = iprop(∃ d, owns (c : Thread nD τ) (ms0 t) fullShare ((cfg0.win 0).fill (cfg0.grid.coords t) d (iblk m c 0 t))) := by
  unfold Dat.leaves; rw [live0 t]
  show iprop(∃ d, owns (c : Thread nD τ) (ms0 t) fullShare ((cfg0.win 0).fill (cfg0.grid.coords t) d ((cfg0.win 0).cut (cfg0.grid.coords t) ((dats m 0 c).after 0 t)))) = _
  rw [after_0]; unfold xin; rw [Window.cut_fill]
theorem leaves_1 (c : Dev nD) (t : Fin cfg0.N) :
    (dats m 0 c).leaves 1 t = owns (c : Thread nD τ) (ms1 t) fullShare (iblk m c 1 t) := by
  unfold Dat.leaves; rw [live1 t]
  show owns (c : Thread nD τ) (ms1 t) fullShare ((dats m 0 c).after 1 t) = _
  rw [after_1]
theorem leaves_2 (c : Dev nD) (t : Fin cfg0.N) :
    (dats m 0 c).leaves 2 t = owns (c : Thread nD τ) (ms2 t) fullShare (iblk m c 2 t) := by
  unfold Dat.leaves; rw [live2 t]
  show owns (c : Thread nD τ) (ms2 t) fullShare ((dats m 0 c).after 2 t) = _
  rw [after_2]
theorem leaves_3_last (c : Dev nD) (t : Fin cfg0.N) (h : condLast (grid0.coords t)) :
    (dats m 0 c).leaves 3 t = owns (c : Thread nD τ) (ms3 t) fullShare (outAt m c t) := by
  unfold Dat.leaves; rw [live3 t h]
  show owns (c : Thread nD τ) (ms3 t) fullShare ((dats m 0 c).after 3 t) = _
  rw [after_3]

end Cert.KernelIdeal.Hand

end
-- ==== Proof.KernelIdealBlocks.lean ====
import proofs.«175364_j73907797229838_2_alg».proof.Proof.KernelIdealData
import Idealize.ShloMosaic.Lib.KernelVsHost
import Idealize.ShloMosaic.Lib.Pipeline.Value
import Idealize.ShloMosaic.Lib.StableHlo.Run
import Idealize.ShloMosaic.PureOps.Ideal.Laws

/-!
  Where the body's blocks sit in the arrays. Point P of the grid is block kk of row r (P = 49·r + kk); there
  window 0's block holds rows 512·r … of x and columns 2048·kk … (those inside the array), windows 1 and 2 hold
  rows 2048·kk … of the two weight arrays the host prepared: the 100000×17 array (w | v) and the 100000×16 array
  v², each extended by 352 rows to 100352 and recast to bf16 — on the extended reals the recast is the identity,
  and on a row below 100000 the extended array is the array.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx Idealize.ShloMosaic.StableHlo
open Idealize.ShloMosaic.Pipeline (Window)

variable (m : (ℓ : Loc nD τ sig) → Buf (Elt Ideal) ℓ)

/-- The three argument arrays on core `c`, as launched. -/
abbrev Xa (c : Dev nD) : S2048x100000.Idx → EReal := m (c, Proc.tc.devRef main_arg0)
abbrev Wa (c : Dev nD) : S100000x1.Idx → EReal := m (c, Proc.tc.devRef main_arg1)
abbrev Va (c : Dev nD) : S100000x16.Idx → EReal := m (c, Proc.tc.devRef main_arg2)

/-! ## The grid: block indices and the point's position -/

theorem idx0 : ∀ P : Fin cfg0.N, win0_0.index P 0 = (grid0.coords P 0).val ∧ win0_0.index P 1 = (grid0.coords P 1).val :=
  (by decide +kernel : ∀ P : Fin grid0.N, win0_0.index P 0 = (grid0.coords P 0).val ∧ win0_0.index P 1 = (grid0.coords P 1).val)
theorem idx1 : ∀ P : Fin cfg0.N, win0_1.index P 0 = (grid0.coords P 1).val ∧ win0_1.index P 1 = 0 :=
  (by decide +kernel : ∀ P : Fin grid0.N, win0_1.index P 0 = (grid0.coords P 1).val ∧ win0_1.index P 1 = 0)
theorem idx2 : ∀ P : Fin cfg0.N, win0_2.index P 0 = (grid0.coords P 1).val ∧ win0_2.index P 1 = 0 :=
  (by decide +kernel : ∀ P : Fin grid0.N, win0_2.index P 0 = (grid0.coords P 1).val ∧ win0_2.index P 1 = 0)
theorem idx3 : ∀ P : Fin cfg0.N, win0_3.index P 0 = (grid0.coords P 0).val :=
  (by decide +kernel : ∀ P : Fin grid0.N, win0_3.index P 0 = (grid0.coords P 0).val)
theorem point_eq : ∀ P : Fin cfg0.N, P.val = 49 * (grid0.coords P 0).val + (grid0.coords P 1).val :=
  (by decide +kernel : ∀ P : Fin grid0.N, P.val = 49 * (grid0.coords P 0).val + (grid0.coords P 1).val)

/-! ## The blocks read at an entry -/

theorem iblk1_apply (c : Dev nD) (P : Fin cfg0.N) (j : Fin 2048) (q : Fin 17)
    (hlt : (grid0.coords P 1).val * 2048 + j.val < 100352) :
    iblk m c 1 P (ix2 j q) = V m c main_v4 (ix2 ⟨(grid0.coords P 1).val * 2048 + j.val, hlt⟩ q) := by
  unfold iblk
  show V m c main_v4 (((cfg0.win 1).blk P).view.emb (ix2 j q)) = _
  refine congrArg (V m c main_v4) (funext fun a => Fin.ext ?_)
  match a with
  | ⟨0, _⟩ => show win0_1.index P 0 * 2048 + 1 * j.val = (grid0.coords P 1).val * 2048 + j.val; rw [(idx1 P).1]; omega
  | ⟨1, _⟩ => show win0_1.index P 1 * 17 + 1 * q.val = q.val; rw [(idx1 P).2]; omega

theorem iblk2_apply (c : Dev nD) (P : Fin cfg0.N) (j : Fin 2048) (k : Fin 16)
    (hlt : (grid0.coords P 1).val * 2048 + j.val < 100352) :
    iblk m c 2 P (ix2 j k) = V m c main_v5 (ix2 ⟨(grid0.coords P 1).val * 2048 + j.val, hlt⟩ k) := by
  unfold iblk
  show V m c main_v5 (((cfg0.win 2).blk P).view.emb (ix2 j k)) = _
  refine congrArg (V m c main_v5) (funext fun a => Fin.ext ?_)
  match a with
  | ⟨0, _⟩ => show win0_2.index P 0 * 2048 + 1 * j.val = (grid0.coords P 1).val * 2048 + j.val; rw [(idx2 P).1]; omega
  | ⟨1, _⟩ => show win0_2.index P 1 * 16 + 1 * k.val = k.val; rw [(idx2 P).2]; omega

/-- An entry of window 0's block whose column is inside the array is one its fetch lands. -/
theorem moved_inside (i : grid0.Coords) (j : S512x2048.Idx) (hj : (i 1).val * 2048 + (j 1).val < 100000) :
    win0_0.moved i j = true := by
  have h4 : (i 0).val < 4 := (i 0).isLt
  have h49 : (i 1).val < 49 := (i 1).isLt
  have h512 : (j 0).val < 512 := (j 0).isLt
  rw [Window.moved_iff]
  intro a
  have hok := win0_0.hclip i a
  have hin : win0_0.indexMap i a * win0_0.size a + (j a).val < win0_0.shape.size a := by
    match a with
    | ⟨0, _⟩ =>
      show (BitVec.ofNat 32 (i 0).val).toNat * 512 + (j 0).val < 2048
      rw [BitVec.toNat_ofNat, Nat.mod_eq_of_lt (by omega)]; omega
    | ⟨1, _⟩ =>
      show (BitVec.ofNat 32 (i 1).val).toNat * 2048 + (j 1).val < 100000
      rw [BitVec.toNat_ofNat, Nat.mod_eq_of_lt (by omega)]; exact hj
  revert hok hin
  show Pipeline.Clip.Ok (win0_0.indexMap i a) (win0_0.size a) (win0_0.shape.size a) (win0_0.clip i a) → _ → (j a).val < (win0_0.clip i a).extent (win0_0.size a)
  generalize win0_0.clip i a = cl
  intro hok hin
  cases cl with
  | none => exact (j a).isLt
  | some n =>
    have e := hok.2.2
    show (j a).val < n
    omega

/-- Window 0's block at an entry whose column is inside the array: the entry of x there. -/
theorem xin_apply (c : Dev nD) (P : Fin cfg0.N) (y : Fin 512) (j : Fin 2048)
    (hin : (grid0.coords P 1).val * 2048 + j.val < 100000) (hrow : (grid0.coords P 0).val * 512 + y.val < 2048) :
    xin m c P (ix2 y j)
      = Xa m c (ix2 ⟨(grid0.coords P 0).val * 512 + y.val, hrow⟩ ⟨(grid0.coords P 1).val * 2048 + j.val, hin⟩) := by
  have hm : win0_0.moved (grid0.coords P) (ix2 y j) = true := moved_inside (grid0.coords P) (ix2 y j) hin
  unfold xin
  show win0_0.fill (grid0.coords P) _ (iblk m c 0 P) (ix2 y j) = _
  unfold Window.fill
  rw [dif_pos hm]
  unfold iblk
  show V m c main_arg0 (((cfg0.win 0).blk P).view.emb _) = _
  rw [V_main_arg0]
  refine congrArg (Xa m c) (funext fun a => Fin.ext ?_)
  match a with
  | ⟨0, _⟩ => show win0_0.index P 0 * 512 + 1 * y.val = (grid0.coords P 0).val * 512 + y.val; rw [(idx0 P).1]; omega
  | ⟨1, _⟩ => show win0_0.index P 1 * 2048 + 1 * j.val = (grid0.coords P 1).val * 2048 + j.val; rw [(idx0 P).2]; omega

/-! ## The weight arrays as the region finds them -/

theorem V_v4 (c : Dev nD) : (V m c main_v4 : S100352x17.Idx → EReal) =
    truncf (F := Ideal) .bf16 (pad S100352x17 ![0, 0] ![352, 0] ![0, 0]
      (concatenate S100000x17 1 [⟨S100000x1, m (c, Proc.tc.devRef main_arg1)⟩, ⟨S100000x16, m (c, Proc.tc.devRef main_arg2)⟩]
        Facts₀.concatenates_S100000x1_S100000x16_S100000x17_d1)
      (sitofp (F := Ideal) .f32 (constantI S_ 32 0#32)) Facts₀.pads_S100000x17_S100352x17_03520_000 Facts₀.h_S_) Facts₀.bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

theorem V_v5 (c : Dev nD) : (V m c main_v5 : S100352x16.Idx → EReal) =
    truncf (F := Ideal) .bf16 (pad S100352x16 ![0, 0] ![352, 0] ![0, 0]
      (mulf (F := Ideal) (m (c, Proc.tc.devRef main_arg2) : S100000x16.Idx → EReal) (m (c, Proc.tc.devRef main_arg2)))
      (sitofp (F := Ideal) .f32 (constantI S_ 32 0#32)) Facts₀.pads_S100000x16_S100352x16_03520_000 Facts₀.h_S_) Facts₀.bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The linear column of the fused weights: w. -/
theorem wv_col0 (c : Dev nD) (cc : Fin 100000) (h : cc.val < 100352) :
    V m c main_v4 (ix2 ⟨cc.val, h⟩ (0 : Fin 17)) = Wa m c (ix2 cc (0 : Fin 1)) := by
  rw [V_v4]
  show pad (s := S100000x17) S100352x17 ![0, 0] ![352, 0] ![0, 0] _ _ Facts₀.pads_S100000x17_S100352x17_03520_000 Facts₀.h_S_ (ix2 ⟨cc.val, h⟩ (0 : Fin 17)) = _
  rw [pad_apply_of_inside ![0, 0] ![352, 0] ![0, 0] _ _ Facts₀.pads_S100000x17_S100352x17_03520_000 Facts₀.h_S_ _ (ix2 cc (0 : Fin 17)) (fun a => by
    match a with
    | ⟨0, _⟩ => show cc.val = 0 + cc.val * (0 + 1); omega
    | ⟨1, _⟩ => show 0 = 0 + 0 * (0 + 1); rfl)]
  exact concatenate_pair_apply_left (t := S100000x17) (s₁ := S100000x1) (s₂ := S100000x16) 1 (Wa m c) (Va m c)
    Facts₀.concatenates_S100000x1_S100000x16_S100000x17_d1 (ix2 cc (0 : Fin 17)) rfl (ix2 cc (0 : Fin 1)) (fun b => by
    match b with
    | ⟨0, _⟩ => rfl
    | ⟨1, _⟩ => rfl)

/-- The other sixteen: v. -/
theorem wv_col_succ (c : Dev nD) (cc : Fin 100000) (k : Fin 16) (h : cc.val < 100352) :
    V m c main_v4 (ix2 ⟨cc.val, h⟩ (⟨k.val + 1, by omega⟩ : Fin 17)) = Va m c (ix2 cc k) := by
  rw [V_v4]
  show pad (s := S100000x17) S100352x17 ![0, 0] ![352, 0] ![0, 0] _ _ Facts₀.pads_S100000x17_S100352x17_03520_000 Facts₀.h_S_ (ix2 ⟨cc.val, h⟩ (⟨k.val + 1, by omega⟩ : Fin 17)) = _
  rw [pad_apply_of_inside ![0, 0] ![352, 0] ![0, 0] _ _ Facts₀.pads_S100000x17_S100352x17_03520_000 Facts₀.h_S_ _ (ix2 cc (⟨k.val + 1, by omega⟩ : Fin 17)) (fun a => by
    match a with
    | ⟨0, _⟩ => show cc.val = 0 + cc.val * (0 + 1); omega
    | ⟨1, _⟩ => show k.val + 1 = 0 + (k.val + 1) * (0 + 1); omega)]
  exact concatenate_pair_apply_right (t := S100000x17) (s₁ := S100000x1) (s₂ := S100000x16) 1 (Wa m c) (Va m c)
    Facts₀.concatenates_S100000x1_S100000x16_S100000x17_d1 (ix2 cc (⟨k.val + 1, by omega⟩ : Fin 17)) rfl rfl (ix2 cc k) (fun b hb => by
    match b with
    | ⟨0, _⟩ => rfl
    | ⟨1, _⟩ => exact absurd rfl hb) (by show k.val + 1 = k.val + 1; rfl)

/-- The squared factors. -/
theorem vsq_apply (c : Dev nD) (cc : Fin 100000) (k : Fin 16) (h : cc.val < 100352) :
    V m c main_v5 (ix2 ⟨cc.val, h⟩ k) = Va m c (ix2 cc k) * Va m c (ix2 cc k) := by
  rw [V_v5]
  show pad (s := S100000x16) S100352x16 ![0, 0] ![352, 0] ![0, 0] _ _ Facts₀.pads_S100000x16_S100352x16_03520_000 Facts₀.h_S_ (ix2 ⟨cc.val, h⟩ k) = _
  rw [pad_apply_of_inside ![0, 0] ![352, 0] ![0, 0] _ _ Facts₀.pads_S100000x16_S100352x16_03520_000 Facts₀.h_S_ _ (ix2 cc k) (fun a => by
    match a with
    | ⟨0, _⟩ => show cc.val = 0 + cc.val * (0 + 1); omega
    | ⟨1, _⟩ => show k.val = 0 + k.val * (0 + 1); omega)]
  rfl

end Cert.KernelIdeal.HandValue

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.LibPaddedBlocks.lean ====
/-
  A sum walked in blocks whose last block overhangs the axis.

  A contraction axis of N entries taken in T blocks of n, with T·n ≥ N — the overhang masked to zero, or the operand
  zero-padded — sums the same as the axis itself: for a summand that vanishes from N on,

      Σ_{t<T} Σ_{j<n} h (t·n + j) = Σ_{c<N} h c,

  over any additive commutative monoid (only the order of a finite sum changes).
-/
import Mathlib.Algebra.BigOperators.Intervals
import proofs.«175364_j73907797229838_2_alg».proof.Proof.LibIdxSums

open scoped BigOperators

namespace Cert.LibPaddedBlocks

variable {M : Type*} [AddCommMonoid M]

/-- `T` blocks of `n` against the first `N ≤ T·n` entries, the summand zero from `N` on. -/
theorem sum_blocks_pad (T n N : ℕ) (hN : N ≤ T * n) (h : ℕ → M) (hz : ∀ c, N ≤ c → h c = 0) :
    ∑ t : Fin T, ∑ j : Fin n, h (t.val * n + j.val) = ∑ c : Fin N, h c.val := by
  have e1 := Cert.LibIdxSums.sum_fin_blocks T n (fun B : Fin (T * n) => h B.val)
  rw [← e1, ← Finset.sum_range (fun c => h c), ← Finset.sum_range (fun c => h c),
    ← Finset.sum_range_add_sum_Ico (fun c => h c) hN,
    Finset.sum_eq_zero (s := Finset.Ico N (T * n)) (fun c hc => hz c (Finset.mem_Ico.mp hc).1), add_zero]

end Cert.LibPaddedBlocks
-- ==== Proof.FmSpec.lean ====
import Idealize.ShloMosaic.Lib.ValueIdx
import Idealize.ShloMosaic.PureOps.Ideal
import Mathlib.Tactic
import proofs.«175364_j73907797229838_2_alg».proof.Proof.LibPaddedBlocks

/-!
  The factorization-machine score, row by row, on the extended reals:

    fm x w v p = Σ_c x[p,c]·w[c,0] + ½ · Σ_k ( (Σ_c x[p,c]·v[c,k])² − Σ_c x[p,c]²·v[c,k]² ),

  c over the 100000 features, k over the 16 factors. Both programs compute it; the kernel takes each Σ_c in 49
  blocks of 2048 columns — 100352 in all, the 352 past the end contributing zero — which is the one law proved
  here: a sum over 49 blocks of 2048 of a summand that vanishes from 100000 on is the sum over the first 100000.
  Only associativity and commutativity of + are used, so nothing is asked of the entries being finite.
-/

noncomputable section

namespace Cert.FmSpec

open Idealize.ShloMosaic Idealize.ShloMosaic.ValueIdx
open scoped BigOperators

/-- The score of row `p`. The constant ½ is kept as its f32 word, the same on both sides. -/
def fm (x : (⟨2, ![2048, 100000]⟩ : Shape).Idx → EReal) (w : (⟨2, ![100000, 1]⟩ : Shape).Idx → EReal)
    (v : (⟨2, ![100000, 16]⟩ : Shape).Idx → EReal) (p : Fin 2048) : EReal :=
  (∑ c : Fin 100000, x (ix2 p c) * w (ix2 c (0 : Fin 1)))
    + Ideal.ofBits .f32 0x3F000000#32
      * ∑ k : Fin 16, ((∑ c : Fin 100000, x (ix2 p c) * v (ix2 c k)) * (∑ c : Fin 100000, x (ix2 p c) * v (ix2 c k))
          - ∑ c : Fin 100000, (x (ix2 p c) * x (ix2 p c)) * (v (ix2 c k) * v (ix2 c k)))

/-- 49 blocks of 2048 against the first 100000: the 352 positions past the end add nothing. -/
theorem sum_blocks_pad {M : Type*} [AddCommMonoid M] (h : ℕ → M) (hz : ∀ c, 100000 ≤ c → h c = 0) :
    ∑ t : Fin 49, ∑ j : Fin 2048, h (t.val * 2048 + j.val) = ∑ c : Fin 100000, h c.val :=
  Cert.LibPaddedBlocks.sum_blocks_pad 49 2048 100000 (by norm_num) h hz

end Cert.FmSpec

end
-- ==== Proof.KernelIdealRow.lean ====
import proofs.«175364_j73907797229838_2_alg».proof.Proof.KernelIdealOps
import proofs.«175364_j73907797229838_2_alg».proof.Proof.KernelIdealBlocks
import proofs.«175364_j73907797229838_2_alg».proof.Proof.FmSpec

/-!
  Along a row of the grid the two running sums collect, block after block, the products of the row's entries of x
  with the weight rows of the block: after block kk of row r, entry (y, q) of the 17-column sum is

      Σ_{t ≤ kk} Σ_{j < 2048}  x[512·r + y, 2048·t + j] · wv[2048·t + j, q]      (terms past feature 100000 are zero),

  and likewise for x²·v². After the row's last block (kk = 48) the 49·2048 = 100352 positions are the 100000
  features and 352 zeros, so each entry is the whole contraction, and the row's stored results are the scores
  `fm x w v (512·r + y)`.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

/-- The summand of entry (pn, q) of x·(w | v) at feature `cc`: zero from feature 100000 on. -/
def term17 (c : Dev nD) (pn : ℕ) (q : Fin 17) (cc : ℕ) : EReal :=
  if h : pn < 2048 ∧ cc < 100000 then Xa m c (ix2 ⟨pn, h.1⟩ ⟨cc, h.2⟩) * V m c main_v4 (ix2 ⟨cc, by omega⟩ q) else 0
/-- The summand of entry (pn, k) of x²·v² at feature `cc`. -/
def term16 (c : Dev nD) (pn : ℕ) (k : Fin 16) (cc : ℕ) : EReal :=
  if h : pn < 2048 ∧ cc < 100000 then
    (Xa m c (ix2 ⟨pn, h.1⟩ ⟨cc, h.2⟩) * Xa m c (ix2 ⟨pn, h.1⟩ ⟨cc, h.2⟩)) * V m c main_v5 (ix2 ⟨cc, by omega⟩ k) else 0

/-- The first kk + 1 blocks of a row's contraction. -/
def rowSum17 (c : Dev nD) (pn : ℕ) (q : Fin 17) (kk : ℕ) : EReal :=
  ∑ t ∈ Finset.range (kk + 1), ∑ j : Fin 2048, term17 m c pn q (t * 2048 + j.val)
def rowSum16 (c : Dev nD) (pn : ℕ) (k : Fin 16) (kk : ℕ) : EReal :=
  ∑ t ∈ Finset.range (kk + 1), ∑ j : Fin 2048, term16 m c pn k (t * 2048 + j.val)

/-- One block's contribution to entry (y, q) of the 17-column sum. -/
theorem block17 (c : Dev nD) (P : Fin cfg0.N) (y : Fin 512) (q : Fin 17) :
    ∑ j : Fin 2048, k0_pay4 (F := Ideal) (grid0.coords P) (xin m c P) (ix2 y j) * iblk m c 1 P (ix2 j q)
      = ∑ j : Fin 2048, term17 m c ((grid0.coords P 0).val * 512 + y.val) q ((grid0.coords P 1).val * 2048 + j.val) := by
  have h4 : (grid0.coords P 0).val < 4 := (grid0.coords P 0).isLt
  have h49 : (grid0.coords P 1).val < 49 := (grid0.coords P 1).isLt
  refine Finset.sum_congr rfl fun j _ => ?_
  have hj : j.val < 2048 := j.isLt
  have hrow : (grid0.coords P 0).val * 512 + y.val < 2048 := by have := y.isLt; omega
  rw [pay4_apply]
  show (if (grid0.coords P 1).val * 2048 + j.val < 100000 then xin m c P (ix2 y j) else 0) * _ = _
  unfold term17
  by_cases hin : (grid0.coords P 1).val * 2048 + j.val < 100000
  · rw [if_pos hin, dif_pos ⟨hrow, hin⟩, xin_apply m c P y j hin hrow, iblk1_apply m c P j q (by omega)]
  · rw [if_neg hin, dif_neg (fun h => hin h.2), zero_mul]

theorem block16 (c : Dev nD) (P : Fin cfg0.N) (y : Fin 512) (k : Fin 16) :
    ∑ j : Fin 2048, (k0_pay4 (F := Ideal) (grid0.coords P) (xin m c P) (ix2 y j) * k0_pay4 (F := Ideal) (grid0.coords P) (xin m c P) (ix2 y j))
        * iblk m c 2 P (ix2 j k)
      = ∑ j : Fin 2048, term16 m c ((grid0.coords P 0).val * 512 + y.val) k ((grid0.coords P 1).val * 2048 + j.val) := by
  have h4 : (grid0.coords P 0).val < 4 := (grid0.coords P 0).isLt
  have h49 : (grid0.coords P 1).val < 49 := (grid0.coords P 1).isLt
  refine Finset.sum_congr rfl fun j _ => ?_
  have hj : j.val < 2048 := j.isLt
  have hrow : (grid0.coords P 0).val * 512 + y.val < 2048 := by have := y.isLt; omega
  rw [pay4_apply]
  show ((if (grid0.coords P 1).val * 2048 + j.val < 100000 then xin m c P (ix2 y j) else 0)
      * (if (grid0.coords P 1).val * 2048 + j.val < 100000 then xin m c P (ix2 y j) else 0)) * _ = _
  unfold term16
  by_cases hin : (grid0.coords P 1).val * 2048 + j.val < 100000
  · rw [if_pos hin, dif_pos ⟨hrow, hin⟩, xin_apply m c P y j hin hrow, iblk2_apply m c P j k (by omega)]
  · rw [if_neg hin, dif_neg (fun h => hin h.2), zero_mul, zero_mul]

/-- At a row's first block the sums are that block's contribution. -/
theorem acc_first (c : Dev nD) (P : Fin cfg0.N) (h0 : P.val % 49 = 0) (y : Fin 512) :
    (∀ q : Fin 17, (accAt m c P.val P.isLt).1 (ix2 y q)
        = rowSum17 m c ((grid0.coords P 0).val * 512 + y.val) q (grid0.coords P 1).val)
    ∧ (∀ k : Fin 16, (accAt m c P.val P.isLt).2 (ix2 y k)
        = rowSum16 m c ((grid0.coords P 0).val * 512 + y.val) k (grid0.coords P 1).val) := by
  have h49 : (grid0.coords P 1).val < 49 := (grid0.coords P 1).isLt
  have hp := point_eq P
  have hk0 : (grid0.coords P 1).val = 0 := by omega
  rw [accAt_first m c P h0]
  unfold stepAcc
  dsimp only
  constructor
  · intro q
    rw [acc17_apply, pay2_apply, zero_add, block17, hk0]
    unfold rowSum17
    rw [Finset.sum_range_one]
  · intro k
    rw [acc16_apply, pay3_apply, zero_add, block16, hk0]
    unfold rowSum16
    rw [Finset.sum_range_one]

/-- After every point: the sums are the blocks of the row so far. -/
theorem acc_closed (c : Dev nD) : ∀ (n : ℕ) (hn : n < cfg0.N) (y : Fin 512),
    (∀ q : Fin 17, (accAt m c n hn).1 (ix2 y q)
        = rowSum17 m c ((grid0.coords ⟨n, hn⟩ 0).val * 512 + y.val) q (grid0.coords ⟨n, hn⟩ 1).val)
    ∧ (∀ k : Fin 16, (accAt m c n hn).2 (ix2 y k)
        = rowSum16 m c ((grid0.coords ⟨n, hn⟩ 0).val * 512 + y.val) k (grid0.coords ⟨n, hn⟩ 1).val) := by
  intro n
  induction n with
  | zero => intro hn y; exact acc_first m c ⟨0, hn⟩ rfl y
  | succ n ih =>
    intro hn y
    by_cases h0 : (n + 1) % 49 = 0
    · exact acc_first m c ⟨n + 1, hn⟩ h0 y
    · have hn' : n < cfg0.N := Nat.lt_of_succ_lt hn
      obtain ⟨ih17, ih16⟩ := ih hn' y
      have e : accAt m c (n + 1) hn = stepAcc m c ⟨n + 1, hn⟩ (accAt m c n hn') := accAt_next m c ⟨n + 1, hn⟩ h0
      have p1 : n + 1 = 49 * (grid0.coords ⟨n + 1, hn⟩ 0).val + (grid0.coords ⟨n + 1, hn⟩ 1).val := point_eq ⟨n + 1, hn⟩
      have p0 : n = 49 * (grid0.coords ⟨n, hn'⟩ 0).val + (grid0.coords ⟨n, hn'⟩ 1).val := point_eq ⟨n, hn'⟩
      have b1 : (grid0.coords ⟨n + 1, hn⟩ 1).val < 49 := (grid0.coords ⟨n + 1, hn⟩ 1).isLt
      have b0 : (grid0.coords ⟨n, hn'⟩ 1).val < 49 := (grid0.coords ⟨n, hn'⟩ 1).isLt
      have hr : (grid0.coords ⟨n, hn'⟩ 0).val = (grid0.coords ⟨n + 1, hn⟩ 0).val := by omega
      have hk : (grid0.coords ⟨n + 1, hn⟩ 1).val = (grid0.coords ⟨n, hn'⟩ 1).val + 1 := by omega
      rw [e]
      unfold stepAcc
      dsimp only
      constructor
      · intro q
        rw [acc17_apply, ih17 q, block17, hr, hk]
        unfold rowSum17
        exact (Finset.sum_range_succ (fun t => ∑ j : Fin 2048, term17 m c ((grid0.coords ⟨n + 1, hn⟩ 0).val * 512 + y.val) q (t * 2048 + j.val))
          ((grid0.coords ⟨n, hn'⟩ 1).val + 1)).symm
      · intro k
        rw [acc16_apply, ih16 k, block16, hr, hk]
        unfold rowSum16
        exact (Finset.sum_range_succ (fun t => ∑ j : Fin 2048, term16 m c ((grid0.coords ⟨n + 1, hn⟩ 0).val * 512 + y.val) k (t * 2048 + j.val))
          ((grid0.coords ⟨n, hn'⟩ 1).val + 1)).symm

/-- All 49 blocks of a row: the whole contraction over the 100000 features. -/
theorem rowSum17_full (c : Dev nD) (pn : ℕ) (hp : pn < 2048) (q : Fin 17) :
    rowSum17 m c pn q 48 = ∑ cc : Fin 100000, Xa m c (ix2 ⟨pn, hp⟩ cc) * V m c main_v4 (ix2 ⟨cc.val, by have := cc.isLt; omega⟩ q) := by
  unfold rowSum17
  rw [Finset.sum_range (fun t => ∑ j : Fin 2048, term17 m c pn q (t * 2048 + j.val)),
    Cert.FmSpec.sum_blocks_pad (term17 m c pn q) (fun cc hcc => dif_neg (fun h => by omega))]
  refine Finset.sum_congr rfl fun cc _ => ?_
  unfold term17
  rw [dif_pos ⟨hp, cc.isLt⟩]

theorem rowSum16_full (c : Dev nD) (pn : ℕ) (hp : pn < 2048) (k : Fin 16) :
    rowSum16 m c pn k 48 = ∑ cc : Fin 100000, (Xa m c (ix2 ⟨pn, hp⟩ cc) * Xa m c (ix2 ⟨pn, hp⟩ cc))
      * V m c main_v5 (ix2 ⟨cc.val, by have := cc.isLt; omega⟩ k) := by
  unfold rowSum16
  rw [Finset.sum_range (fun t => ∑ j : Fin 2048, term16 m c pn k (t * 2048 + j.val)),
    Cert.FmSpec.sum_blocks_pad (term16 m c pn k) (fun cc hcc => dif_neg (fun h => by omega))]
  refine Finset.sum_congr rfl fun cc _ => ?_
  unfold term16
  rw [dif_pos ⟨hp, cc.isLt⟩]

/-- What a row's last point stores: the scores of its 512 rows. -/
theorem outAt_value (c : Dev nD) (P : Fin cfg0.N) (h48 : P.val % 49 = 48) (y : Fin 512)
    (hp : (grid0.coords P 0).val * 512 + y.val < 2048) :
    outAt m c P (ix1 y) = Cert.FmSpec.fm (Xa m c) (Wa m c) (Va m c) ⟨(grid0.coords P 0).val * 512 + y.val, hp⟩ := by
  have h49 : (grid0.coords P 1).val < 49 := (grid0.coords P 1).isLt
  have hpt := point_eq P
  have hk : (grid0.coords P 1).val = 48 := by omega
  obtain ⟨c17, c16⟩ := acc_closed m c P.val P.isLt y
  unfold outAt
  rw [rowOut_apply]
  simp only [c17, c16, hk, rowSum17_full m c _ hp, rowSum16_full m c _ hp]
  unfold Cert.FmSpec.fm
  refine congrArg₂ (· + ·) (Finset.sum_congr rfl fun cc _ => congrArg (Xa m c (ix2 _ cc) * ·) (wv_col0 m c cc _)) ?_
  refine congrArg (Ideal.ofBits .f32 0x3F000000#32 * ·) (Finset.sum_congr rfl fun k _ => ?_)
  have e1 : ∀ cc : Fin 100000, Xa m c (ix2 ⟨(grid0.coords P 0).val * 512 + y.val, hp⟩ cc) * V m c main_v4 (ix2 ⟨cc.val, by have := cc.isLt; omega⟩ (⟨k.val + 1, by omega⟩ : Fin 17))
      = Xa m c (ix2 ⟨(grid0.coords P 0).val * 512 + y.val, hp⟩ cc) * Va m c (ix2 cc k) := fun cc =>
    congrArg (Xa m c (ix2 _ cc) * ·) (wv_col_succ m c cc k _)
  have e2 : ∀ cc : Fin 100000, (Xa m c (ix2 ⟨(grid0.coords P 0).val * 512 + y.val, hp⟩ cc) * Xa m c (ix2 ⟨(grid0.coords P 0).val * 512 + y.val, hp⟩ cc))
        * V m c main_v5 (ix2 ⟨cc.val, by have := cc.isLt; omega⟩ k)
      = (Xa m c (ix2 ⟨(grid0.coords P 0).val * 512 + y.val, hp⟩ cc) * Xa m c (ix2 ⟨(grid0.coords P 0).val * 512 + y.val, hp⟩ cc))
        * (Va m c (ix2 cc k) * Va m c (ix2 cc k)) := fun cc =>
    congrArg ((Xa m c (ix2 _ cc) * Xa m c (ix2 _ cc)) * ·) (vsq_apply m c cc k _)
  exact congrArg₂ (· - ·)
    (congrArg₂ (· * ·) (Finset.sum_congr rfl fun cc _ => e1 cc) (Finset.sum_congr rfl fun cc _ => e1 cc))
    (Finset.sum_congr rfl fun cc _ => e2 cc)

end Cert.KernelIdeal.HandValue

end
-- ==== Proof.KernelIdealFrame.lean ====
import proofs.«175364_j73907797229838_2_alg».proof.Proof.KernelIdealData

set_option maxRecDepth 16384

/-!
  The body obligation of the pipeline, point by point, and the run: every weakly fair execution of @main
  terminates without a fault, the argument arrays end as launched, and the result array ends at what the
  write-backs of the four rows' last points leave in it.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
/-- The body at any point. Its position in its row (t mod 49) says which way the two conditionals go; the
    invariant hands it the scratch sums of the point before (anything at a row's first block), the windows
    their blocks; the sums it leaves are the next point's, by the mask whatever filled window 0's buffer past
    the array's end; the output block is stored at a row's last point and handed back as found elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN : t.val < 196 := lt_of_lt_of_eq t.isLt (show cfg0.N = 196 from N_0)
  have e17 : ∀ d s, acc17 (grid0.coords t) ((cfg0.win 0).fill (cfg0.grid.coords t) d (iblk m c 0 t)) (iblk m c 1 t) s
      = acc17 (grid0.coords t) (xin m c t) (iblk m c 1 t) s := fun d s =>
    acc17_congr _ _ _ _ _ (fun j hj => fill_inside (grid0.coords t) d _ (iblk m c 0 t) j hj)
  have e16 : ∀ d s, acc16 (grid0.coords t) ((cfg0.win 0).fill (cfg0.grid.coords t) d (iblk m c 0 t)) (iblk m c 2 t) s
      = acc16 (grid0.coords t) (xin m c t) (iblk m c 2 t) s := fun d s =>
    acc16_congr _ _ _ _ _ (fun j hj => fill_inside (grid0.coords t) d _ (iblk m c 0 t) j hj)
  by_cases h0 : t.val % 49 = 0
  · -- a row's first block
    have hl : ¬t.val % 49 = 48 := by omega
    have hcl : ¬condLast (grid0.coords t) := fun h => hl ((hlast t).mp h)
    rw [Dat.leaves_idle (dats m 0 c) 3 t (idle3 t hcl) (noFlush3 t hcl)]
    rw [accAt_first m c t h0]
    unfold stepAcc; dsimp only
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) scM0 (Memref.isWhole_whole _) scM1 (Memref.isWhole_whole _) ((hfirst t).mpr h0) hcl
        ((cfg0.win 0).fill (cfg0.grid.coords t) d0 (iblk m c 0 t)) (iblk m c 1 t) (iblk m c 2 t) ((dats m 0 c).before 3 t d3) Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      simp only [e17, e16]
      isplitl [HS0 HS1 Hg]
      · isplitl [HS0 HS1]
        · isplitl [HS0]; · iexact HS0
          iexact HS1
        iexact Hg
      isplitl [Ho]; · iexact Ho
      isplitl [H0]; · iexists d0; iexact H0
      isplitl [H1]; · iexact H1
      isplitl [H2]; · iexact H2
      iexists d3; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) scM0 (Memref.isWhole_whole _) scM1 (Memref.isWhole_whole _) ((hfirst t).mpr h0) hcl
        ((cfg0.win 0).fill (cfg0.grid.coords t) d0 (iblk m c 0 t)) (iblk m c 1 t) (iblk m c 2 t) ((dats m 0 c).before 3 t d3) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      simp only [e17, e16]
      isplitl [HS0 HS1 Hg]
      · isplitl [HS0 HS1]
        · isplitl [HS0]; · iexact HS0
          iexact HS1
        iexact Hg
      isplitl [Ho]; · iexact Ho
      isplitl [H0]; · iexists d0; iexact H0
      isplitl [H1]; · iexact H1
      isplitl [H2]; · iexact H2
      iexists d3; iexact H3
  · have hcf : ¬condFirst (grid0.coords t) := fun h => h0 ((hfirst t).mp h)
    have hz : t.val ≠ 0 := fun h => h0 (by rw [h])
    by_cases h1 : t.val % 49 = 48
    · -- a row's last block
      have hcl : condLast (grid0.coords t) := (hlast t).mpr h1
      rw [leaves_3_last m c t hcl]
      unfold outAt
      rw [accAt_next m c t h0]
      unfold stepAcc; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) scM0 (Memref.isWhole_whole _) scM1 (Memref.isWhole_whole _) hcf hcl
        ((cfg0.win 0).fill (cfg0.grid.coords t) d0 (iblk m c 0 t)) (iblk m c 1 t) (iblk m c 2 t) _ _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      simp only [e17, e16]
      isplitl [HS0 HS1 Hg]
      · isplitl [HS0 HS1]
        · isplitl [HS0]; · iexact HS0
          iexact HS1
        iexact Hg
      isplitl [Ho]; · iexact Ho
      isplitl [H0]; · iexists d0; iexact H0
      isplitl [H1]; · iexact H1
      isplitl [H2]; · iexact H2
      iexact H3
    · -- a middle block
      have hcl : ¬condLast (grid0.coords t) := fun h => h1 ((hlast t).mp h)
      rw [Dat.leaves_idle (dats m 0 c) 3 t (idle3 t hcl) (noFlush3 t hcl)]
      rw [accAt_next m c t h0]
      unfold stepAcc; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) scM0 (Memref.isWhole_whole _) scM1 (Memref.isWhole_whole _) hcf hcl
        ((cfg0.win 0).fill (cfg0.grid.coords t) d0 (iblk m c 0 t)) (iblk m c 1 t) (iblk m c 2 t) ((dats m 0 c).before 3 t d3) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      simp only [e17, e16]
      isplitl [HS0 HS1 Hg]
      · isplitl [HS0 HS1]
        · isplitl [HS0]; · iexact HS0
          iexact HS1
        iexact Hg
      isplitl [Ho]; · iexact Ho
      isplitl [H0]; · iexists d0; iexact H0
      isplitl [H1]; · iexact H1
      isplitl [H2]; · iexact H2
      iexists d3; iexact H3

/-- The library's body obligation, at every point (window 0 stated on the columns its transfers move). -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the sums' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 196 := N_0; omega), PhiA0_eq]
  iintro ⟨⟨HS0, HS1⟩, Hg⟩
  isplitl [HS0 HS1]
  · isplitl [HS0]; · iexists _; iexact HS0
    iexists _; iexact HS1
  iexact Hg

set_option backward.isDefEq.respectTransparency.types false in
/-- The run: every weakly fair execution of @main terminates, every array of the pipeline ends at what the
    library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: @main runs to the end without a fault and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KernelIdealValue.lean ====
import proofs.«175364_j73907797229838_2_alg».proof.Proof.KernelIdealRow
import proofs.«175364_j73907797229838_2_alg».proof.Proof.KernelIdealFrame
import Idealize.ShloMosaic.Lib.Pipeline.Value

/-!
  The result array after the run. The output window's block at a row's last point is the 512 results of rows
  512·r … 512·r + 511, so what that point writes back is block r of the score array; the four rows' last points
  cover the 2048 results; hence the result array ends holding `fm x w v p` at every p.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The scores of the 2048 rows, as an array. -/
def scoreArr (c : Dev nD) : S2048.Idx → EReal := fun i => Cert.FmSpec.fm (Xa m c) (Wa m c) (Va m c) (i 0)

/-- What a row's last point writes back is that row's block of the score array. -/
theorem flushed_score (c : Dev nD) (P : Fin cfg0.N) (hf : (cfg0.win 3).flush P = true) :
    (dats m 0 c).flushed 3 P = ((cfg0.win 3).blk P).view.read (Elt Ideal) (scoreArr m c) := by
  have h48 : P.val % 49 = 48 := (flush0_3 P).mp hf
  have h4 : (grid0.coords P 0).val < 4 := (grid0.coords P 0).isLt
  show (cfg0.win 3).cut (grid0.coords P) ((dats m 0 c).after 3 P) = _
  rw [after_3]
  funext y
  obtain ⟨y0, rfl⟩ : ∃ y0 : Fin 512, y = ix1 y0 := ⟨y 0, eq_ix1 y⟩
  have hp : (grid0.coords P 0).val * 512 + y0.val < 2048 := by have := y0.isLt; omega
  show outAt m c P (ix1 y0) = scoreArr m c (((cfg0.win 3).blk P).view.emb (ix1 y0))
  rw [outAt_value m c P h48 y0 hp]
  unfold scoreArr
  refine congrArg (Cert.FmSpec.fm (Xa m c) (Wa m c) (Va m c)) (Fin.ext ?_)
  show (grid0.coords P 0).val * 512 + y0.val = win0_3.index P 0 * 512 + 1 * y0.val
  rw [idx3 P]; omega

/-- An index of the result array is in point P's block iff it is among the block's 512 rows. -/
theorem mem_blk3 (P : Fin cfg0.N) (i : S2048.Idx) :
    i ∈ ((cfg0.win 3).blk P).view.set ↔ ∀ a : Fin 1, win0_3.index P a * S512.size a ≤ (i a).val ∧ (i a).val < win0_3.index P a * S512.size a + S512.size a := by
  show i ∈ ((View.whole main_v6).slice (win0_3.rect P)).set ↔ _
  rw [View.set_slice_whole, Rect.mem_set_unit]
  exact Iff.rfl

/-- Every index is in the block of its row's last point. -/
theorem cover3 (i : S2048.Idx) : ∃ P : Fin cfg0.N, (cfg0.win 3).flush P = true ∧ i ∈ ((cfg0.win 3).blk P).view.set := by
  have hi : (i 0).val < 2048 := (i 0).isLt
  have hN : 49 * ((i 0).val / 512) + 48 < cfg0.N := by rw [show cfg0.N = 196 from N_0]; omega
  refine ⟨⟨49 * ((i 0).val / 512) + 48, hN⟩, (flush0_3 _).mpr (by show (49 * ((i 0).val / 512) + 48) % 49 = 48; omega), ?_⟩
  rw [mem_blk3]
  intro a
  have hpt : 49 * ((i 0).val / 512) + 48 = 49 * (grid0.coords ⟨49 * ((i 0).val / 512) + 48, hN⟩ 0).val
      + (grid0.coords ⟨49 * ((i 0).val / 512) + 48, hN⟩ 1).val := point_eq ⟨49 * ((i 0).val / 512) + 48, hN⟩
  have h49 : (grid0.coords ⟨49 * ((i 0).val / 512) + 48, hN⟩ 1).val < 49 := (grid0.coords ⟨49 * ((i 0).val / 512) + 48, hN⟩ 1).isLt
  have hr : (grid0.coords ⟨49 * ((i 0).val / 512) + 48, hN⟩ 0).val = (i 0).val / 512 := by omega
  match a with
  | ⟨0, _⟩ =>
    show win0_3.index ⟨49 * ((i 0).val / 512) + 48, hN⟩ 0 * 512 ≤ (i 0).val
      ∧ (i 0).val < win0_3.index ⟨49 * ((i 0).val / 512) + 48, hN⟩ 0 * 512 + 512
    rw [idx3, hr]; omega

/-- The result array after the run is the score array. -/
theorem final_score (c : Dev nD) : (dats m 0 c).arrAt 3 cfg0.N = scoreArr m c :=
  (dats m 0 c).arrAt_eq_of_cover 3 (scoreArr m c) (fun P hf => flushed_score m c P hf) cover3

/-- The run of the idealized kernel with its result named: it ends with the result array at the scores and the
    three argument arrays as launched. -/
theorem run_value : θ_run defs (onTc (τ := τ) (main (F := Ideal))) ⟨m, fun _ => 0, ρ⟩ (fun r => ∀ c : Dev nD,
      r.2.mem ((c.tc : Thread nD τ).loc main_v6) = scoreArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final_score m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.HandValue

end
-- ==== Proof.RefSide.lean ====
import proofs.«175364_j73907797229838_2_alg».proof.Proof.Gen.ReferenceIdeal.Run
import proofs.«175364_j73907797229838_2_alg».proof.Proof.Gen.ReferenceIdeal.Read
import proofs.«175364_j73907797229838_2_alg».proof.Proof.FmSpec
import Idealize.ShloMosaic.PureOps.Ideal.Laws

/-!
  The reference computes the score directly: three whole matrix products over the 100000 features, the square of
  one, the difference, the sum over the 16 factors from zero, the scaling by ½ and the sum with the linear term.
  Read one operation at a time at an index, its result at row `p` is `fm x w v p`.
-/

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

theorem ref_is_fm (x0 : (⟨S2048x100000, .f32⟩ : BufTy).Contents (Elt Ideal)) (x1 : (⟨S100000x1, .f32⟩ : BufTy).Contents (Elt Ideal))
    (x2 : (⟨S100000x16, .f32⟩ : BufTy).Contents (Elt Ideal)) :
    val_main_v11 (F := Ideal) x0 x1 x2 = fun i => Cert.FmSpec.fm x0 x1 x2 (i 0) := by
  funext i
  have e0l : ∀ k, lidx_main_v0 (idx_main_v1 i) k = ix2 (i 0) k := fun k => funext fun a => Fin.ext (by
    match a with
    | ⟨0, _⟩ => exact Nat.div_one _
    | ⟨1, _⟩ => rfl)
  have e0r : ∀ k, ridx_main_v0 (idx_main_v1 i) k = ix2 k (0 : Fin 1) := fun k => funext fun a => Fin.ext (by
    match a with
    | ⟨0, _⟩ => rfl
    | ⟨1, _⟩ => rfl)
  have e2l : ∀ q k, lidx_main_v2 (idx_main_v8 i q) k = ix2 (i 0) k := fun q k => funext fun a => Fin.ext (by
    match a with
    | ⟨0, _⟩ => rfl
    | ⟨1, _⟩ => rfl)
  have e2r : ∀ q k, ridx_main_v2 (idx_main_v8 i q) k = ix2 k q := fun q k => funext fun a => Fin.ext (by
    match a with
    | ⟨0, _⟩ => rfl
    | ⟨1, _⟩ => rfl)
  have e6l : ∀ q k, lidx_main_v6 (idx_main_v8 i q) k = ix2 (i 0) k := fun q k => funext fun a => Fin.ext (by
    match a with
    | ⟨0, _⟩ => rfl
    | ⟨1, _⟩ => rfl)
  have e6r : ∀ q k, ridx_main_v6 (idx_main_v8 i q) k = ix2 k q := fun q k => funext fun a => Fin.ext (by
    match a with
    | ⟨0, _⟩ => rfl
    | ⟨1, _⟩ => rfl)
  rw [val_main_v11_apply, val_main_v1_apply, val_main_v0_apply, val_main_v10_apply, val_main_v9_apply, val_main_cst_0_apply,
    val_main_v8_apply, val_main_cst_apply]
  simp only [val_main_v7_apply, val_main_v3_apply, val_main_v2_apply, val_main_v6_apply, val_main_v4_apply, val_main_v5_apply,
    Ideal.addf_def, Ideal.mulf_def, Ideal.subf_def, Ideal.ofBits_def, Ideal.ofBits_zero_f32, zero_add, e0l, e0r, e2l, e2r, e6l, e6r]
  rfl

end Cert.ReferenceIdeal.RefValue

end
-- ==== Proof.lean ====
/-
  A factorization machine's second-order score over 100000 features and 16 factors, for 2048 rows:

      out[p] = Σ_c x[p,c]·w[c] + ½ · Σ_k ( (Σ_c x[p,c]·v[c,k])² − Σ_c x[p,c]²·v[c,k]² ).

  The reference computes it with three whole matrix products. The kernel walks a grid of 4 row blocks by 49 column
  blocks: at each block it masks to zero the columns of x at or past 100000 (the last block of a row overhangs the
  array), multiplies the masked block into the matching 2048 rows of (w | v) and of v² — both extended with 352 zero
  rows — and adds the products to two running sums kept in scratch; after a row's last block it stores the 512
  results. On the extended reals the two agree row by row: the kernel's Σ_c is the same sum taken in 49 blocks of
  2048, the 352 extra positions contributing zero — only the order of a finite sum changes, so the precondition that
  the inputs are finite is never opened.

  The three frames: the two kernels' by the pipeline's body obligation, stated on window 0 only where its fetch lands
  (the mask makes the body's results independent of the rest) with the scratch sums carried as the region invariant;
  the reference's is its run with the result dropped. The idealization rewrote nothing, so its conjunct is trivial.
-/
import proofs.«175364_j73907797229838_2_alg».proof.Defs
import proofs.«175364_j73907797229838_2_alg».proof.Proof.Gen.Kernel
import proofs.«175364_j73907797229838_2_alg».proof.Proof.Gen.KernelIdeal
import proofs.«175364_j73907797229838_2_alg».proof.Proof.Gen.ReferenceIdeal
import proofs.«175364_j73907797229838_2_alg».proof.Proof.Gen.Pre_finite_inputs
import proofs.«175364_j73907797229838_2_alg».proof.Proof.KernelFrame
import proofs.«175364_j73907797229838_2_alg».proof.Proof.KernelIdealValue
import proofs.«175364_j73907797229838_2_alg».proof.Proof.RefSide

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the score array: the kernel's result by its run read through the write-backs,
    the reference's by its operations read at an index, of arguments that agree. -/
theorem algebraic : Cert.algebraic_KernelIdeal_ReferenceIdeal := by
  intro m ρ m' ρ' _ hagree
  refine ⟨fun c => Cert.KernelIdeal.HandValue.scoreArr m c, Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_is_fm, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
